-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128 : Shape := ⟨1, ![128]⟩
abbrev S128x128 : Shape := ⟨2, ![128, 128]⟩
abbrev S500 : Shape := ⟨1, ![500]⟩
abbrev S50000x1 : Shape := ⟨2, ![50000, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S500 : S_.BroadcastsInDim S500 (![] : Fin 0 → Fin S500.rank)
  reducesTo_S500_S_d0 : S500.ReducesTo [0] S_
  bcast_S_S50000x1 : S_.BroadcastsInDim S50000x1 (![] : Fin 0 → Fin S50000x1.rank)
  reducesTo_S50000x1_S_d0_1 : S50000x1.ReducesTo [0, 1] S_

variable [Facts]

def fn_part4 {F : FTy → Type} [FloatOps F] (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg14 : FVec F S128 .f32) (main_arg15 : FVec F S500 .f32) (main_arg16 : FVec F S50000x1 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S500 .f32 := Host.absf main_arg15
  let main_cst_22 : FVec F S_ .f32 := constant S_ .f32 0x7F800000#32
  let main_v60 : FVec F S500 .f32 := broadcastInDim S500 ![] bcast_S_S500 main_cst_22
  let main_v61 : IVec S500 1 := cmpf .olt main_v59 main_v60
  let main_c_23 : IVec S_ 1 := constantI S_ 1 1#1
  let main_v62 : IVec S_ 1 := (fun x v => Host.reduce IntOp.andi x v reducesTo_S500_S_d0 h_S_) main_v61 main_c_23
  let main_v63 : IVec S_ 1 := andi main_v58 main_v62
  let main_v64 : FVec F S50000x1 .f32 := Host.absf main_arg16
  let main_cst_24 : FVec F S_ .f32 := constant S_ .f32 0x7F800000#32
  let main_v65 : FVec F S50000x1 .f32 := broadcastInDim S50000x1 ![] bcast_S_S50000x1 main_cst_24
  let main_v66 : IVec S50000x1 1 := cmpf .olt main_v64 main_v65
  let main_c_25 : IVec S_ 1 := constantI S_ 1 1#1
  let main_v67 : IVec S_ 1 := (fun x v => Host.reduce IntOp.andi x v reducesTo_S50000x1_S_d0_1 h_S_) main_v66 main_c_25
  fn_part4 (F := F) main_arg17 main_arg18 main_v63 main_v67

def fn_part2 {F : FTy → Type} [FloatOps F] (main_arg10 : FVec F S128 .f32) (main_arg11 : FVec F S128 .f32) (main_arg12 : FVec F S128 .f32) (main_arg13 : FVec F S128 .f32) (main_arg14 : FVec F S128 .f32) (main_arg15 : FVec F S500 .f32) (main_arg16 : FVec F S50000x1 .f32) (main_arg17 : FVec F S128x128 .f32) (main_arg18 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_v48 main_v49 main_v50

def fn_part1 {F : FTy → Type} [FloatOps F] (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S500 .f32) (main_arg16 : FVec F S50000x1 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S50000x128 .f32) (main_arg1 : IVec S640000 32) (main_arg2 : IVec S640000 32) (main_arg3 : FVec F S640000 .f32) (main_arg4 : IVec S640000 32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S500 .f32) (main_arg16 : FVec F S50000x1 .f32) (main_arg17 : FVec F S128x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S640000 : Shape := ⟨1, ![640000]⟩
abbrev S128 : Shape := ⟨1, ![128]⟩
abbrev S128x128 : Shape := ⟨2, ![128, 128]⟩
abbrev S500 : Shape := ⟨1, ![500]⟩
abbrev S50000x1 : Shape := ⟨2, ![50000, 1]⟩
abbrev S5000x128 : Shape := ⟨2, ![5000, 128]⟩
abbrev S1x128 : Shape := ⟨2, ![1, 128]⟩
abbrev S640000x1 : Shape := ⟨2, ![640000, 1]⟩
abbrev S_ : Shape := ⟨0, ![]⟩
abbrev S640000x128 : Shape := ⟨2, ![640000, 128]⟩
abbrev S50000x384 : Shape := ⟨2, ![50000, 384]⟩
abbrev S2000x128 : Shape := ⟨2, ![2000, 128]⟩
abbrev S2000x1 : Shape := ⟨2, ![2000, 1]⟩
abbrev S2000x384 : Shape := ⟨2, ![2000, 384]⟩
abbrev S2000 : Shape := ⟨1, ![2000]⟩

abbrev nBuf : Space → Nat
  | .hbm => 70
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S640000, .i32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S500, .f32⟩
  | .hbm, ⟨16, _⟩ => ⟨S50000x1, .f32⟩
  | .hbm, ⟨17, _⟩ => ⟨S128x128, .f32⟩
  | .hbm, ⟨18, _⟩ => ⟨S128, .f32⟩
  | .hbm, ⟨19, _⟩ => ⟨S50000x128, .bf16⟩
  | .hbm, ⟨20, _⟩ => ⟨S640000x1, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .bf16⟩
  | .hbm, ⟨30, _⟩ => ⟨S640000x128, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S50000x128, .f32⟩
  | .hbm, ⟨35, _⟩ => ⟨S640000x1, .i32⟩
  | .hbm, ⟨36, _⟩ => ⟨S50000x128, .f32⟩
  | .hbm, ⟨37, _⟩ => ⟨S50000x128, .f32⟩
  | .hbm, ⟨38, _⟩ => ⟨S50000x128, .bf16⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000, .f32⟩
  | .hbm, ⟨48, _⟩ => ⟨S_, .f32⟩
  | .hbm, ⟨49, _⟩ => ⟨S640000, .f32⟩
  | .hbm, ⟨50, _⟩ => ⟨S640000, .f32⟩
  | .hbm, ⟨51, _⟩ => ⟨S640000, .f32⟩
  | .hbm, ⟨52, _⟩ => ⟨S640000x1, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000x128, .bf16⟩
  | .hbm, ⟨62, _⟩ => ⟨S640000x128, .f32⟩
  | .hbm, ⟨63, _⟩ => ⟨S640000x128, .f32⟩
  | .hbm, ⟨64, _⟩ => ⟨S640000x128, .f32⟩
  | .hbm, ⟨65, _⟩ => ⟨S_, .f32⟩
  | .hbm, ⟨66, _⟩ => ⟨S50000x128, .f32⟩
  | .hbm, ⟨67, _⟩ => ⟨S640000x1, .i32⟩
  | .hbm, ⟨68, _⟩ => ⟨S50000x128, .f32⟩
  | .hbm, ⟨69, _⟩ => ⟨S50000x384, .f32⟩
  | .local _ .vmem, ⟨0, _⟩ => ⟨S5000x128, .f32⟩
  | .local _ .vmem, ⟨1, _⟩ => ⟨S5000x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .bf16⟩
  | .local _ .vmem, ⟨19, _⟩ => ⟨S5000x128, .bf16⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .bf16⟩
  | .local _ .vmem, ⟨27, _⟩ => ⟨S2000x128, .bf16⟩
  | .local _ .vmem, ⟨28, _⟩ => ⟨S2000x1, .f32⟩
  | .local _ .vmem, ⟨29, _⟩ => ⟨S2000x1, .f32⟩
  | .local _ .vmem, ⟨30, _⟩ => ⟨S128x128, .f32⟩
  | .local _ .vmem, ⟨31, _⟩ => ⟨S128, .f32⟩
  | .local _ .vmem, ⟨32, _⟩ => ⟨S2000x384, .f32⟩
  | .local _ .vmem, ⟨33, _⟩ => ⟨S2000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x384 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S5000x128_S5000x128 : S5000x128.ShapeCasts S5000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  broadcasts_S1x128_S2000x128 : S1x128.Broadcasts S2000x128
  reduces_S2000x128_S2000 : S2000x128.Reduces [1] S2000
  shapeCasts_S2000_S2000x1 : S2000.ShapeCasts S2000x1
  inb_S2000x384_S2000x128_0_0 : ∀ a, (![0, 0] : Fin 2 → Nat) a + S2000x128.size a ≤ S2000x384.size a
  inb_S2000x384_S2000x128_0_128 : ∀ a, (![0, 128] : Fin 2 → Nat) a + S2000x128.size a ≤ S2000x384.size a
  inb_S2000x384_S2000x128_0_256 : ∀ a, (![0, 256] : Fin 2 → Nat) a + S2000x128.size a ≤ S2000x384.size a
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  gather_S500_S640000x1_S640000_n_0_n_n_0_1_1_wf : GatherDims.WF S500 S640000x1 S640000 [] [0] [] [0] [] 1 ![1]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .bf16 = 32 ∨ (Rect.block (s := S50000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x384.size a ≤ S50000x384.size a
  hwx2_7 : ∀ i : grid2.Coords, EltTy.bits .f32 = 32 ∨ (Rect.block (s := S50000x384) S2000x384.size (cc2_transform_7 i) (hinb2_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def gather_S500_S640000x1_S640000_n_0_n_n_0_1_1 : GatherDims S500 S640000x1 S640000 where
  offsetDims := []
  collapsedSliceDims := [0]
  operandBatchingDims := []
  startIndicesBatchingDims := []
  startIndexMap := [0]
  indexVectorDim := 1
  sliceSizes := ![1]
  wf := gather_S500_S640000x1_S640000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15_1) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S2000x384.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S640000 : Shape := ⟨1, ![640000]⟩
abbrev S128 : Shape := ⟨1, ![128]⟩
abbrev S128x128 : Shape := ⟨2, ![128, 128]⟩
abbrev S500 : Shape := ⟨1, ![500]⟩
abbrev S50000x1 : Shape := ⟨2, ![50000, 1]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x384 : Shape := ⟨2, ![50000, 384]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S640000, .f32⟩
  | 4 => ⟨S640000, .i32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S500, .f32⟩
  | 16 => ⟨S50000x1, .f32⟩
  | 17 => ⟨S128x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S640000x1, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S640000x128, .f32⟩
  | 47 => ⟨S640000x128, .f32⟩
  | 48 => ⟨S_, .f32⟩
  | 49 => ⟨S50000x128, .f32⟩
  | 50 => ⟨S640000x1, .i32⟩
  | 51 => ⟨S50000x128, .f32⟩
  | 52 => ⟨S1x128, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000, .f32⟩
  | 81 => ⟨S_, .f32⟩
  | 82 => ⟨S640000, .f32⟩
  | 83 => ⟨S640000, .f32⟩
  | 84 => ⟨S640000, .f32⟩
  | 85 => ⟨S640000x1, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S640000x128, .f32⟩
  | 96 => ⟨S640000x128, .f32⟩
  | 97 => ⟨S_, .f32⟩
  | 98 => ⟨S50000x128, .f32⟩
  | 99 => ⟨S640000x1, .i32⟩
  | 100 => ⟨S50000x128, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x1, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S_, .f32⟩
  | 5 => ⟨S50000, .f32⟩
  | 6 => ⟨S50000x1, .f32⟩
  | 7 => ⟨S_, .f32⟩
  | 8 => ⟨S50000x1, .f32⟩
  | 9 => ⟨S50000x1, .f32⟩
  | 10 => ⟨S50000x1, .f32⟩
  | 11 => ⟨S50000x128, .f32⟩
  | 12 => ⟨S50000x128, .f32⟩
  | 13 => ⟨S50000x384, .f32⟩
  | 14 => ⟨S50000x384, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x1, .f32⟩
  | 22 => ⟨S50000x384, .f32⟩
  | 23 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_3 : Ref sig .tc := ⟨.hbm, 72, rfl⟩
abbrev main_v48 : Ref sig .tc := ⟨.hbm, 73, rfl⟩
abbrev main_v49 : Ref sig .tc := ⟨.hbm, 74, rfl⟩
abbrev main_c_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_6 : Ref sig .tc := ⟨.hbm, 86, rfl⟩
abbrev main_v59 : Ref sig .tc := ⟨.hbm, 87, rfl⟩
abbrev main_v60 : Ref sig .tc := ⟨.hbm, 88, rfl⟩
abbrev main_c_7 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_9 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_cst_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_12 : Ref sig .tc := ⟨.hbm, 122, rfl⟩
abbrev main_v89 : Ref sig .tc := ⟨.hbm, 123, rfl⟩
abbrev main_v90 : Ref sig .tc := ⟨.hbm, 124, rfl⟩
abbrev main_cst_13 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_14 : Ref sig .tc := ⟨.hbm, 132, rfl⟩
abbrev main_v97 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_16 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  concatenates_S50000x128_S50000x128_S50000x128_S50000x384_d1 : Shape.Concatenates [S50000x128, S50000x128, S50000x128] S50000x384 1
  reducesTo_S50000x384_S50000_d1 : S50000x384.ReducesTo [1] S50000
  bcast_S50000x1_S50000x384_0_1 : S50000x1.BroadcastsInDim S50000x384 (![0, 1] : Fin 2 → Fin S50000x384.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  gather_S500_S640000x1_S640000_n_0_n_n_0_1_1_wf : GatherDims.WF S500 S640000x1 S640000 [] [0] [] [0] [] 1 ![1]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def gather_S500_S640000x1_S640000_n_0_n_n_0_1_1 : GatherDims S500 S640000x1 S640000 where
  offsetDims := []
  collapsedSliceDims := [0]
  operandBatchingDims := []
  startIndicesBatchingDims := []
  startIndexMap := [0]
  indexVectorDim := 1
  sliceSizes := ![1]
  wf := gather_S500_S640000x1_S640000_n_0_n_n_0_1_1_wf

class Facts : Prop extends Facts₀ where

variable [Facts]
-- ==== Proof.RunResult.lean ====
/-
  The idealized kernel's run, with its result named.  The program is three kernel regions among two stretches of
  host operations; its run is a fold of the buffer contents through the five segments.  Every weakly fair
  execution terminates, faults nowhere, leaves the nineteen argument arrays as launched, and leaves the result
  array at the last boundary's contents: the fold of the launch memory through region 0, the first host stretch,
  region 1, the second host stretch and region 2, read at the result's buffer.
-/
import proofs.«124451_j77163382440873_2_alg».proof.Proof.Gen.KernelIdeal.Frame

set_option maxRecDepth 16384

noncomputable section

namespace Cert.Bridge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and every argument array as launched. -/
theorem run_result : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c)⟩)

end Cert.Bridge.Run

end
-- ==== Proof.Fold.lean ====
/-
  The buffer contents at the boundaries of the program's five segments, read at the buffers the proof needs.
  A host stretch leaves every buffer it does not write as it found it; a region leaves every buffer that is not
  one of its windows' arrays as it found it, each input array as it found it, and each output array at what its
  grid points wrote back.  So every argument array is the launch memory at every boundary, and each region's
  operands are either arguments, or an earlier region's output array, or a host stretch's result.
-/
import proofs.«124451_j77163382440873_2_alg».proof.Proof.Gen.KernelIdeal.Frame

set_option maxRecDepth 16384

noncomputable section

namespace Cert.Bridge.Fold

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## At the first region's exit -/

/-- The first region's output array. -/
theorem W1_v0 (c : Dev nD) : W1 m ρ c (Proc.devRef .tc main_v0) = (dat0 (V0 m ρ) c).arrAt 6 cfg0.N := W1_arr m ρ c 6
theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W1_arg10 (c : Dev nD) : W1 m ρ c (Proc.devRef .tc main_arg10) = m ((c : Thread nD τ).loc main_arg10) :=
  (W1_of_ne m ρ c main_arg10 (by decide)).trans rfl
theorem W1_arg11 (c : Dev nD) : W1 m ρ c (Proc.devRef .tc main_arg11) = m ((c : Thread nD τ).loc main_arg11) :=
  (W1_of_ne m ρ c main_arg11 (by decide)).trans rfl
theorem W1_arg12 (c : Dev nD) : W1 m ρ c (Proc.devRef .tc main_arg12) = m ((c : Thread nD τ).loc main_arg12) :=
  (W1_of_ne m ρ c main_arg12 (by decide)).trans rfl
theorem W1_arg13 (c : Dev nD) : W1 m ρ c (Proc.devRef .tc main_arg13) = m ((c : Thread nD τ).loc main_arg13) :=
  (W1_of_ne m ρ c main_arg13 (by decide)).trans rfl
theorem W1_arg14 (c : Dev nD) : W1 m ρ c (Proc.devRef .tc main_arg14) = m ((c : Thread nD τ).loc main_arg14) :=
  (W1_of_ne m ρ c main_arg14 (by decide)).trans rfl
theorem W1_arg15 (c : Dev nD) : W1 m ρ c (Proc.devRef .tc main_arg15) = m ((c : Thread nD τ).loc main_arg15) :=
  (W1_of_ne m ρ c main_arg15 (by decide)).trans rfl

/-! ## At the second region's entry (after the first host stretch) and exit -/
theorem W2_arg10 (c : Dev nD) : W2 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg10 m ρ c)
theorem W2_arg11 (c : Dev nD) : W2 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg11 m ρ c)
theorem W2_arg12 (c : Dev nD) : W2 m ρ c (Proc.devRef .tc main_arg12) = m ((c : Thread nD τ).loc main_arg12) :=
  (StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg12 m ρ c)
theorem W2_arg13 (c : Dev nD) : W2 m ρ c (Proc.devRef .tc main_arg13) = m ((c : Thread nD τ).loc main_arg13) :=
  (StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg13 m ρ c)
theorem W2_arg14 (c : Dev nD) : W2 m ρ c (Proc.devRef .tc main_arg14) = m ((c : Thread nD τ).loc main_arg14) :=
  (StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg14 m ρ c)
theorem W2_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg1 m ρ c)
theorem W3_arg1 (c : Dev nD) : W3 m ρ c (Proc.devRef .tc main_arg1) = m ((c : Thread nD τ).loc main_arg1) :=
  (W3_of_ne m ρ c main_arg1 (by decide)).trans (W2_arg1 m ρ c)
theorem W2_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg2 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W2_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg3 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W2_arg4 (c : Dev nD) : W2 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg4 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W2_arg15 (c : Dev nD) : W2 m ρ c (Proc.devRef .tc main_arg15) = m ((c : Thread nD τ).loc main_arg15) :=
  (StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg15 m ρ c)
theorem W3_arg15 (c : Dev nD) : W3 m ρ c (Proc.devRef .tc main_arg15) = m ((c : Thread nD τ).loc main_arg15) :=
  (W3_of_ne m ρ c main_arg15 (by decide)).trans (W2_arg15 m ρ c)

/-- The second region's two output arrays. -/
theorem W3_v15_0 (c : Dev nD) : W3 m ρ c (Proc.devRef .tc main_v15_0) = (dat1 (V2 m ρ) c).arrAt 6 cfg1.N := W3_arr m ρ c 6
theorem W3_v15_1 (c : Dev nD) : W3 m ρ c (Proc.devRef .tc main_v15_1) = (dat1 (V2 m ρ) c).arrAt 7 cfg1.N := W3_arr m ρ c 7

/-! ## At the third region's entry (after the second host stretch) -/

theorem W4_v15_0 (c : Dev nD) : W4 m ρ c (Proc.devRef .tc main_v15_0) = (dat1 (V2 m ρ) c).arrAt 6 cfg1.N :=
  (StableHlo.after_of_forall_not_mem (b := Proc.devRef .tc main_v15_0) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_v15_0 m ρ c)
theorem W4_v15_1 (c : Dev nD) : W4 m ρ c (Proc.devRef .tc main_v15_1) = (dat1 (V2 m ρ) c).arrAt 7 cfg1.N :=
  (StableHlo.after_of_forall_not_mem (b := Proc.devRef .tc main_v15_1) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_v15_1 m ρ c)
theorem W4_arg0 (c : Dev nD) : W4 m ρ c (Proc.devRef .tc main_arg0) = m ((c : Thread nD τ).loc main_arg0) :=
  (((W5_arr m ρ c 0).trans (((dat2 (V4 m ρ) c).arrAt_in 0 rfl _).trans (A_eq2 (V4 m ρ) c 0))).symm).trans (W5_main_arg0 m ρ c)
theorem W4_arg16 (c : Dev nD) : W4 m ρ c (Proc.devRef .tc main_arg16) = m ((c : Thread nD τ).loc main_arg16) :=
  (((W5_arr m ρ c 4).trans (((dat2 (V4 m ρ) c).arrAt_in 4 rfl _).trans (A_eq2 (V4 m ρ) c 4))).symm).trans (W5_main_arg16 m ρ c)
theorem W4_arg17 (c : Dev nD) : W4 m ρ c (Proc.devRef .tc main_arg17) = m ((c : Thread nD τ).loc main_arg17) :=
  (((W5_arr m ρ c 5).trans (((dat2 (V4 m ρ) c).arrAt_in 5 rfl _).trans (A_eq2 (V4 m ρ) c 5))).symm).trans (W5_main_arg17 m ρ c)
theorem W4_arg18 (c : Dev nD) : W4 m ρ c (Proc.devRef .tc main_arg18) = m ((c : Thread nD τ).loc main_arg18) :=
  (((W5_arr m ρ c 6).trans (((dat2 (V4 m ρ) c).arrAt_in 6 rfl _).trans (A_eq2 (V4 m ρ) c 6))).symm).trans (W5_main_arg18 m ρ c)

/-- The result array: the third region's output array. -/
theorem W5_v40 (c : Dev nD) : W5 m ρ c (Proc.devRef .tc main_v40) = (dat2 (V4 m ρ) c).arrAt 7 cfg2.N := W5_arr m ρ c 7

end Cert.Bridge.Fold

end
-- ==== Proof.Spec.lean ====
/-
  The mathematics of the computation, stated once over the extended reals and over whole arrays, with no
  program in sight.  A node-feature matrix x (50000 × 128) goes through

    hw  = BN₁(x) · W₁                       (dense1)
    s₁  = A ⋅ hw                            (a sparse aggregation: gather rows, weight, scatter-add; kept abstract)
    y₁  = tanh(s₁ + b₁)                     (act)
    h₂  = BN₂(y₁)                           (bn2)
    agg = A' ⋅ h₂                           (a second sparse aggregation, kept abstract)
    y₂  = (agg + h₂ ⊙ (coeff + 1)) · W_d + b_d      (dense2)
    out = ℓ₂-normalise( [ℓ₂n(x) | ℓ₂n(y₁) | ℓ₂n(y₂)] )   (out; rows of length 384)

  where BN(v) = (v − μ) · rsqrt(σ² + ε) · γ + β entrywise along a row, and ℓ₂n(a) scales a row by
  rsqrt(max(‖row‖², ε')).  Every sum is a finite sum over the 128 lanes of a row; the squared norm of the
  concatenated row is written as the sum of the three parts' squared norms (addition of extended reals is
  commutative and associative, so the grouping is immaterial to the value, and fixed here once).
-/
import Idealize.ShloMosaic.PureOps.Ideal
import Idealize.ShloMosaic.Lib.ValueIdx

noncomputable section

namespace Cert.Spec

open Idealize.ShloMosaic Idealize.ShloMosaic.ValueIdx

/-- An r × c array of extended reals, indexed by its two coordinates. -/
abbrev Mat (r c : Nat) : Type := (⟨2, ![r, c]⟩ : Shape).Idx → EReal
/-- A vector of n extended reals. -/
abbrev Vc (n : Nat) : Type := (⟨1, ![n]⟩ : Shape).Idx → EReal

/-- The batch-norm epsilon: the binary32 number nearest 1e-3, as the exact real it denotes. -/
def epsBN : EReal := Ideal.ofBits .f32 0x3A83126F#32
/-- The normalisation floor: the binary32 number nearest 1e-12. -/
def epsL2 : EReal := Ideal.ofBits .f32 0x2B8CBCCC#32
/-- The binary32 number 1.0. -/
def oneF : EReal := Ideal.ofBits .f32 0x3F800000#32

/-- Batch normalisation with moving statistics, of one entry. -/
def bnv (v mu var g b : EReal) : EReal := (v - mu) * Ideal.rsqrt (var + epsBN) * g + b

/-- hw = BN₁(x) · W: entry (r, j) is the sum over the lanes k of BN₁(x)(r, k) · W(k, j). -/
def dense1 (x : Mat 50000 128) (g b mu var : Vc 128) (W : Mat 128 128) : Mat 50000 128 := fun i =>
  ∑ k : Fin 128, bnv (x (ix2 (i 0) k)) (mu (ix1 k)) (var (ix1 k)) (g (ix1 k)) (b (ix1 k)) * W (ix2 k (i 1))

/-- y₁ = tanh(s + b₁), the bias along a row. -/
def act (s : Mat 50000 128) (b1 : Vc 128) : Mat 50000 128 := fun i => Ideal.tanh (s i + b1 (ix1 (i 1)))

/-- h₂ = BN₂(y), entrywise. -/
def bn2 (y : Mat 50000 128) (g b mu var : Vc 128) : Mat 50000 128 := fun i =>
  bnv (y i) (mu (ix1 (i 1))) (var (ix1 (i 1))) (g (ix1 (i 1))) (b (ix1 (i 1)))

/-- agg + h₂ ⊙ (coeff + 1), the coefficient one per row. -/
def selfAgg (agg h2 : Mat 50000 128) (coeff : Mat 50000 1) : Mat 50000 128 := fun i =>
  agg i + h2 i * (coeff (ix2 (i 0) 0) + oneF)

/-- y₂ = (agg + h₂ ⊙ (coeff + 1)) · W_d + b_d. -/
def dense2 (agg h2 : Mat 50000 128) (coeff : Mat 50000 1) (Wd : Mat 128 128) (bd : Vc 128) : Mat 50000 128 := fun i =>
  (∑ k : Fin 128, selfAgg agg h2 coeff (ix2 (i 0) k) * Wd (ix2 k (i 1))) + bd (ix1 (i 1))

/-- The squared Euclidean norm of row r. -/
def rowSq (a : Mat 50000 128) (r : Fin 50000) : EReal := ∑ k : Fin 128, a (ix2 r k) * a (ix2 r k)

/-- Row-wise ℓ₂ normalisation with a floor under the squared norm. -/
def l2n (a : Mat 50000 128) : Mat 50000 128 := fun i => a i * Ideal.rsqrt (max (rowSq a (i 0)) epsL2)

/-- The squared norm of row r of the three normalised parts side by side. -/
def total (nx ny1 ny2 : Mat 50000 128) (r : Fin 50000) : EReal := rowSq nx r + rowSq ny1 r + rowSq ny2 r

/-- The final scale of row r. -/
def inv (nx ny1 ny2 : Mat 50000 128) (r : Fin 50000) : EReal := Ideal.rsqrt (max (total nx ny1 ny2 r) epsL2)

/-- Entry (r, j) of the three parts side by side: part ⌊j / 128⌋ at lane j mod 128. -/
def cat (nx ny1 ny2 : Mat 50000 128) : Mat 50000 384 := fun i =>
  if h : (i 1).val < 128 then nx (ix2 (i 0) ⟨(i 1).val, h⟩)
  else if h2 : (i 1).val < 256 then ny1 (ix2 (i 0) ⟨(i 1).val - 128, by omega⟩)
  else ny2 (ix2 (i 0) ⟨(i 1).val - 256, by have := idx2_lt1 i; omega⟩)

/-- The result: the normalised parts side by side, every row scaled to unit length (with the floor). -/
def out (x y1 y2 : Mat 50000 128) : Mat 50000 384 := fun i =>
  cat (l2n x) (l2n y1) (l2n y2) i * inv (l2n x) (l2n y1) (l2n y2) (i 0)

end Cert.Spec

end
-- ==== Proof.Sparse.lean ====
/-
  The two sparse aggregations.  Each gathers rows of a dense matrix h by the column indices of the edges (an index
  below zero wraps round once, as array indexing does), weights the gathered row by the edge's value, and
  scatter-adds the weighted rows into the rows named by the edges' row indices, from the zero matrix.  The second
  aggregation first divides every edge value by one plus a per-relation coefficient looked up by the edge's relation.
  Both programs compute them with the same host operations; nothing of a gather or a scatter is ever opened here:
  the aggregation is ONE function of the dense matrix and the edge data, and equal arguments give equal results.
-/
import proofs.«124451_j77163382440873_2_alg».proof.KernelIdeal
import proofs.«124451_j77163382440873_2_alg».proof.Proof.Gen.ReferenceIdeal.Read
import proofs.«124451_j77163382440873_2_alg».proof.Proof.Spec

set_option maxRecDepth 16384

noncomputable section

namespace Cert.Bridge.Sparse

open Idealize.ShloMosaic
open Cert.Spec (Mat Vc)
open Cert.ReferenceIdeal.Read

/-- An edge list's integer column: 640000 words. -/
abbrev IdxArr : Type := (⟨Cert.ReferenceIdeal.S640000, .i32⟩ : BufTy).Contents (Elt Ideal)
/-- An edge list's float column. -/
abbrev ValArr : Type := (⟨Cert.ReferenceIdeal.S640000, .f32⟩ : BufTy).Contents (Elt Ideal)

/-- The first aggregation: rows of `h` gathered by `cols`, weighted by `vals`, scatter-added by `rows`. -/
def agg1 (h : Mat 50000 128) (rows cols : IdxArr) (vals : ValArr) : Mat 50000 128 :=
  Host.scatterAdd (F := Ideal) (φ := .f32) Cert.ReferenceIdeal.scatter_S50000x128_S640000x1_S640000x128_1_0_0_1
    (val_main_v26 (F := Ideal)) (val_main_v27 (F := Ideal) rows)
    (mulf (F := Ideal) (φ := .f32) (val_main_v24 (F := Ideal) vals)
      (Host.gather (α := EReal) Cert.ReferenceIdeal.gather_S50000x128_S640000x1_S640000x128_1_0_n_n_0_1_1128 h (val_main_v22 (F := Ideal) cols)))

/-- The second aggregation: the same with every edge value divided by one plus its relation's coefficient. -/
def agg2 (h : Mat 50000 128) (rows cols : IdxArr) (vals : ValArr) (rels : IdxArr)
    (coeffs : (⟨Cert.ReferenceIdeal.S500, .f32⟩ : BufTy).Contents (Elt Ideal)) : Mat 50000 128 :=
  Host.scatterAdd (F := Ideal) (φ := .f32) Cert.ReferenceIdeal.scatter_S50000x128_S640000x1_S640000x128_1_0_0_1
    (val_main_v68 (F := Ideal)) (val_main_v69 (F := Ideal) rows)
    (mulf (F := Ideal) (φ := .f32) (val_main_v66 (F := Ideal) vals rels coeffs)
      (Host.gather (α := EReal) Cert.ReferenceIdeal.gather_S50000x128_S640000x1_S640000x128_1_0_n_n_0_1_1128 h (val_main_v64 (F := Ideal) cols)))

/-- The reference's first scatter IS the first aggregation of its first dense product. -/
theorem ref_agg1 (x0 : (⟨Cert.ReferenceIdeal.S50000x128, .f32⟩ : BufTy).Contents (Elt Ideal)) (x1 x2 : IdxArr) (x3 : ValArr)
    (x5 x6 x7 x8 : (⟨Cert.ReferenceIdeal.S128, .f32⟩ : BufTy).Contents (Elt Ideal))
    (x9 : (⟨Cert.ReferenceIdeal.S128x128, .f32⟩ : BufTy).Contents (Elt Ideal)) :
    val_main_v28 (F := Ideal) x0 x1 x2 x3 x5 x6 x7 x8 x9 = agg1 (val_main_v15 (F := Ideal) x0 x5 x6 x7 x8 x9) x1 x2 x3 := rfl

/-- The reference's second scatter IS the second aggregation of its second batch-norm. -/
theorem ref_agg2 (x0 : (⟨Cert.ReferenceIdeal.S50000x128, .f32⟩ : BufTy).Contents (Elt Ideal)) (x1 x2 : IdxArr) (x3 : ValArr) (x4 : IdxArr)
    (x5 x6 x7 x8 : (⟨Cert.ReferenceIdeal.S128, .f32⟩ : BufTy).Contents (Elt Ideal))
    (x9 : (⟨Cert.ReferenceIdeal.S128x128, .f32⟩ : BufTy).Contents (Elt Ideal))
    (x10 x11 x12 x13 x14 : (⟨Cert.ReferenceIdeal.S128, .f32⟩ : BufTy).Contents (Elt Ideal))
    (x15 : (⟨Cert.ReferenceIdeal.S500, .f32⟩ : BufTy).Contents (Elt Ideal)) :
    val_main_v70 (F := Ideal) x0 x1 x2 x3 x4 x5 x6 x7 x8 x9 x10 x11 x12 x13 x14 x15
      = agg2 (val_main_v47 (F := Ideal) x0 x1 x2 x3 x5 x6 x7 x8 x9 x10 x11 x12 x13 x14) x1 x2 x3 x4 x15 := rfl

end Cert.Bridge.Sparse

end
-- ==== Proof.HostStretch.lean ====
/-
  The two stretches of host operations between the kernel's regions, read back: after the first stretch the second
  region's aggregated operand is the first sparse aggregation of the first region's output array and the edge data;
  after the second stretch the third region's aggregated operand is the second sparse aggregation of the second
  region's normalised output and the edge data.  The kernel stores both dense operands in a 16-bit format and widens
  them after the gather; over the extended reals a change of format is the identity, so the host terms are, word for
  word, the reference's own.
-/
import proofs.«124451_j77163382440873_2_alg».proof.Proof.Gen.KernelIdeal.Frame
import proofs.«124451_j77163382440873_2_alg».proof.Proof.Sparse
import Idealize.ShloMosaic.Lib.StableHlo.Run
import Idealize.ShloMosaic.PureOps.Ideal

set_option maxRecDepth 16384

noncomputable section

namespace Cert.Bridge.HostStretch

open Cert.KernelIdeal Cert.KernelIdeal.Gen
open Idealize.ShloMosaic Idealize.ShloMosaic.TcCoe Idealize.ShloMosaic.Tactic Idealize.ShloMosaic.StableHlo
open Idealize.SL.Sem

set_option maxHeartbeats 8000000 in
/-- After the first host stretch the aggregated operand is the first aggregation of what the stretch found. -/
theorem stretch1 (W : Valuation τ sig (Elt Ideal)) :
    StableHlo.after hostOps1 W (Proc.devRef .tc main_v14)
      = Cert.Bridge.Sparse.agg1 (W (Proc.devRef .tc main_v0)) (W (Proc.devRef .tc main_arg1)) (W (Proc.devRef .tc main_arg2))
          (W (Proc.devRef .tc main_arg3)) := by
  after_results_simp
  rfl

set_option maxHeartbeats 8000000 in
/-- After the second host stretch the aggregated operand is the second aggregation of what the stretch found. -/
theorem stretch2 (W : Valuation τ sig (Elt Ideal)) :
    StableHlo.after hostOps2 W (Proc.devRef .tc main_v39)
      = Cert.Bridge.Sparse.agg2 (W (Proc.devRef .tc main_v15_1)) (W (Proc.devRef .tc main_arg1)) (W (Proc.devRef .tc main_arg2))
          (W (Proc.devRef .tc main_arg3)) (W (Proc.devRef .tc main_arg4)) (W (Proc.devRef .tc main_arg15)) := by
  after_results_simp
  rfl

end Cert.Bridge.HostStretch

end
-- ==== Proof.Whole.lean ====
/-
  The idealized kernel's result as ONE function of its nineteen argument arrays.

    hw  = BN₁(x)·W₁                                   the first region's output array
    y₁  = tanh(A⋅hw + b₁),  h₂ = BN₂(y₁)               the second region's two output arrays
    y₂  = (A'⋅h₂ + h₂ ⊙ (coeff + 1))·W_d + b_d
    out = ℓ₂n([ℓ₂n(x) | ℓ₂n(y₁) | ℓ₂n(y₂)])            the third region's output array, the result

  Each region's output array is a function of the arrays it was entered with (three lemmas, one per region);
  the arrays a region is entered with are arguments, earlier output arrays, or a sparse aggregation of one; so
  the result array is the composition, read off the fold of buffer contents one boundary at a time.
-/
import proofs.«124451_j77163382440873_2_alg».proof.Proof.Fold
import proofs.«124451_j77163382440873_2_alg».proof.Proof.HostStretch
import proofs.«124451_j77163382440873_2_alg».proof.Proof.Spec

set_option maxRecDepth 16384

noncomputable section

namespace Cert.Bridge

open Cert.KernelIdeal Cert.KernelIdeal.Gen
open Idealize.ShloMosaic Idealize.ShloMosaic.TcCoe
open Idealize.SL.Sem
open Cert.Spec (Mat Vc)
open Cert.Bridge.Sparse (IdxArr ValArr agg1 agg2)

/-- The whole computation: the result array as a function of the nineteen arguments. -/
def whole (x : Mat 50000 128) (rows cols : IdxArr) (vals : ValArr) (rels : IdxArr)
    (g1 be1 mu1 var1 : Vc 128) (W1 : Mat 128 128) (b1 g2 be2 mu2 var2 : Vc 128)
    (coeffs : (⟨Cert.ReferenceIdeal.S500, .f32⟩ : BufTy).Contents (Elt Ideal))
    (coeff : Mat 50000 1) (Wd : Mat 128 128) (bd : Vc 128) : Mat 50000 384 :=
  Cert.Spec.out x
    (Cert.Spec.act (agg1 (Cert.Spec.dense1 x g1 be1 mu1 var1 W1) rows cols vals) b1)
    (Cert.Spec.dense2
      (agg2 (Cert.Spec.bn2 (Cert.Spec.act (agg1 (Cert.Spec.dense1 x g1 be1 mu1 var1 W1) rows cols vals) b1) g2 be2 mu2 var2)
        rows cols vals rels coeffs)
      (Cert.Spec.bn2 (Cert.Spec.act (agg1 (Cert.Spec.dense1 x g1 be1 mu1 var1 W1) rows cols vals) b1) g2 be2 mu2 var2)
      coeff Wd bd)

variable (m : (ℓ : Loc nD τ sig) → Buf (Elt Ideal) ℓ) (ρ : Dev nD → PrngReg)

/-- The three regions' output arrays as functions of their entry contents (proved region by region). -/
structure RegionValues : Prop where
  hw : ∀ (V : (c : Dev nD) → (b : Ref sig .tc) → Buf (Elt Ideal) ((c : Thread nD τ).loc b)) (c : Dev nD),
    (dat0 (F := Ideal) V c).arrAt 6 cfg0.N
      = Cert.Spec.dense1 (V c main_arg0) (V c main_arg5) (V c main_arg6) (V c main_arg7) (V c main_arg8) (V c main_arg9)
  y1 : ∀ (V : (c : Dev nD) → (b : Ref sig .tc) → Buf (Elt Ideal) ((c : Thread nD τ).loc b)) (c : Dev nD),
    (dat1 (F := Ideal) V c).arrAt 6 cfg1.N = Cert.Spec.act (V c main_v14) (V c main_arg10)
  h2 : ∀ (V : (c : Dev nD) → (b : Ref sig .tc) → Buf (Elt Ideal) ((c : Thread nD τ).loc b)) (c : Dev nD),
    (dat1 (F := Ideal) V c).arrAt 7 cfg1.N
      = Cert.Spec.bn2 (Cert.Spec.act (V c main_v14) (V c main_arg10)) (V c main_arg11) (V c main_arg12) (V c main_arg13) (V c main_arg14)
  out : ∀ (V : (c : Dev nD) → (b : Ref sig .tc) → Buf (Elt Ideal) ((c : Thread nD τ).loc b)) (c : Dev nD),
    (dat2 (F := Ideal) V c).arrAt 7 cfg2.N
      = Cert.Spec.out (V c main_arg0) (V c main_v15_0)
          (Cert.Spec.dense2 (V c main_v39) (V c main_v15_1) (V c main_arg16) (V c main_arg17) (V c main_arg18))

set_option maxHeartbeats 4000000 in
/-- The last boundary's contents at the result's buffer: the whole computation of the launch memory's arguments. -/
theorem result_eq (H : RegionValues) (c : Dev nD) :
    W5 m ρ c (Proc.devRef .tc main_v40)
      = whole (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) (m ((c : Thread nD τ).loc main_arg18)) := by
  -- the first region's output array
  have hw : W1 m ρ c (Proc.devRef .tc main_v0)
      = Cert.Spec.dense1 (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) :=
    (Fold.W1_v0 m ρ c).trans (H.hw (V0 m ρ) c)
  -- the first aggregation, as the second region finds it
  have s1 : V2 m ρ c main_v14
      = agg1 (Cert.Spec.dense1 (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) (m ((c : Thread nD τ).loc main_arg3)) := by
    refine (HostStretch.stretch1 (W1 m ρ c)).trans ?_
    rw [hw, Fold.W1_arg1 m ρ c, Fold.W1_arg2 m ρ c, Fold.W1_arg3 m ρ c]
  -- the second region's two output arrays
  have y1 : (dat1 (V2 m ρ) c).arrAt 6 cfg1.N = (Cert.Spec.act (agg1 (Cert.Spec.dense1 (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) (m ((c : Thread nD τ).loc main_arg3))) (m ((c : Thread nD τ).loc main_arg10))) := by
    refine (H.y1 (V2 m ρ) c).trans ?_
    rw [s1, show V2 m ρ c main_arg10 = (m ((c : Thread nD τ).loc main_arg10)) from Fold.W2_arg10 m ρ c]
  have h2 : (dat1 (V2 m ρ) c).arrAt 7 cfg1.N = (Cert.Spec.bn2 (Cert.Spec.act (agg1 (Cert.Spec.dense1 (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) (m ((c : Thread nD τ).loc main_arg3))) (m ((c : Thread nD τ).loc main_arg10))) (m ((c : Thread nD τ).loc main_arg11)) (m ((c : Thread nD τ).loc main_arg12)) (m ((c : Thread nD τ).loc main_arg13)) (m ((c : Thread nD τ).loc main_arg14))) := by
    refine (H.h2 (V2 m ρ) c).trans ?_
    rw [s1, show V2 m ρ c main_arg10 = (m ((c : Thread nD τ).loc main_arg10)) from Fold.W2_arg10 m ρ c,
      show V2 m ρ c main_arg11 = (m ((c : Thread nD τ).loc main_arg11)) from Fold.W2_arg11 m ρ c,
      show V2 m ρ c main_arg12 = (m ((c : Thread nD τ).loc main_arg12)) from Fold.W2_arg12 m ρ c,
      show V2 m ρ c main_arg13 = (m ((c : Thread nD τ).loc main_arg13)) from Fold.W2_arg13 m ρ c,
      show V2 m ρ c main_arg14 = (m ((c : Thread nD τ).loc main_arg14)) from Fold.W2_arg14 m ρ c]
  -- the second aggregation, as the third region finds it
  have s2 : V4 m ρ c main_v39 = agg2 (Cert.Spec.bn2 (Cert.Spec.act (agg1 (Cert.Spec.dense1 (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) (m ((c : Thread nD τ).loc main_arg3))) (m ((c : Thread nD τ).loc main_arg10))) (m ((c : Thread nD τ).loc main_arg11)) (m ((c : Thread nD τ).loc main_arg12)) (m ((c : Thread nD τ).loc main_arg13)) (m ((c : Thread nD τ).loc main_arg14))) (m ((c : Thread nD τ).loc main_arg1)) (m ((c : Thread nD τ).loc main_arg2)) (m ((c : Thread nD τ).loc main_arg3)) (m ((c : Thread nD τ).loc main_arg4)) (m ((c : Thread nD τ).loc main_arg15)) := by
    refine (HostStretch.stretch2 (W3 m ρ c)).trans ?_
    rw [(Fold.W3_v15_1 m ρ c).trans h2, Fold.W3_arg1 m ρ c, Fold.W3_arg2 m ρ c, Fold.W3_arg3 m ρ c, Fold.W3_arg4 m ρ c,
      Fold.W3_arg15 m ρ c]
  -- the third region's output array is the result
  rw [Fold.W5_v40 m ρ c, H.out (V4 m ρ) c, s2,
    show V4 m ρ c main_arg0 = (m ((c : Thread nD τ).loc main_arg0)) from Fold.W4_arg0 m ρ c,
    show V4 m ρ c main_v15_0 = (Cert.Spec.act (agg1 (Cert.Spec.dense1 (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) (m ((c : Thread nD τ).loc main_arg3))) (m ((c : Thread nD τ).loc main_arg10))) from (Fold.W4_v15_0 m ρ c).trans y1,
    show V4 m ρ c main_v15_1 = (Cert.Spec.bn2 (Cert.Spec.act (agg1 (Cert.Spec.dense1 (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) (m ((c : Thread nD τ).loc main_arg3))) (m ((c : Thread nD τ).loc main_arg10))) (m ((c : Thread nD τ).loc main_arg11)) (m ((c : Thread nD τ).loc main_arg12)) (m ((c : Thread nD τ).loc main_arg13)) (m ((c : Thread nD τ).loc main_arg14))) from (Fold.W4_v15_1 m ρ c).trans h2,
    show V4 m ρ c main_arg16 = (m ((c : Thread nD τ).loc main_arg16)) from Fold.W4_arg16 m ρ c,
    show V4 m ρ c main_arg17 = (m ((c : Thread nD τ).loc main_arg17)) from Fold.W4_arg17 m ρ c,
    show V4 m ρ c main_arg18 = (m ((c : Thread nD τ).loc main_arg18)) from Fold.W4_arg18 m ρ c]
  rfl

/-! ## The reference's result is the same function -/

open Cert.ReferenceIdeal.Read in
/-- The reference's five dense stages as the specification's functions of the stage before (proved stage by stage). -/
structure RefValues : Prop where
  dense1 : ∀ (x0 : (⟨Cert.ReferenceIdeal.S50000x128, .f32⟩ : BufTy).Contents (Elt Ideal)) (x1 x2 : IdxArr) (x3 : ValArr) (x4 : IdxArr)
    (x5 x6 x7 x8 : (⟨Cert.ReferenceIdeal.S128, .f32⟩ : BufTy).Contents (Elt Ideal)) (x9 : (⟨Cert.ReferenceIdeal.S128x128, .f32⟩ : BufTy).Contents (Elt Ideal))
    (x10 x11 x12 x13 x14 : (⟨Cert.ReferenceIdeal.S128, .f32⟩ : BufTy).Contents (Elt Ideal)) (x15 : (⟨Cert.ReferenceIdeal.S500, .f32⟩ : BufTy).Contents (Elt Ideal))
    (x16 : (⟨Cert.ReferenceIdeal.S50000x1, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)),
    val_main_v15 (F := Ideal) x0 x5 x6 x7 x8 x9 = Cert.Spec.dense1 x0 x5 x6 x7 x8 x9
  act : ∀ (x0 : (⟨Cert.ReferenceIdeal.S50000x128, .f32⟩ : BufTy).Contents (Elt Ideal)) (x1 x2 : IdxArr) (x3 : ValArr) (x4 : IdxArr)
    (x5 x6 x7 x8 : (⟨Cert.ReferenceIdeal.S128, .f32⟩ : BufTy).Contents (Elt Ideal)) (x9 : (⟨Cert.ReferenceIdeal.S128x128, .f32⟩ : BufTy).Contents (Elt Ideal))
    (x10 x11 x12 x13 x14 : (⟨Cert.ReferenceIdeal.S128, .f32⟩ : BufTy).Contents (Elt Ideal)) (x15 : (⟨Cert.ReferenceIdeal.S500, .f32⟩ : BufTy).Contents (Elt Ideal))
    (x16 : (⟨Cert.ReferenceIdeal.S50000x1, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)),
    val_main_v32 (F := Ideal) x0 x1 x2 x3 x5 x6 x7 x8 x9 x10
      = Cert.Spec.act (val_main_v28 (F := Ideal) x0 x1 x2 x3 x5 x6 x7 x8 x9) x10
  bn2 : ∀ (x0 : (⟨Cert.ReferenceIdeal.S50000x128, .f32⟩ : BufTy).Contents (Elt Ideal)) (x1 x2 : IdxArr) (x3 : ValArr) (x4 : IdxArr)
    (x5 x6 x7 x8 : (⟨Cert.ReferenceIdeal.S128, .f32⟩ : BufTy).Contents (Elt Ideal)) (x9 : (⟨Cert.ReferenceIdeal.S128x128, .f32⟩ : BufTy).Contents (Elt Ideal))
    (x10 x11 x12 x13 x14 : (⟨Cert.ReferenceIdeal.S128, .f32⟩ : BufTy).Contents (Elt Ideal)) (x15 : (⟨Cert.ReferenceIdeal.S500, .f32⟩ : BufTy).Contents (Elt Ideal))
    (x16 : (⟨Cert.ReferenceIdeal.S50000x1, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)),
    val_main_v47 (F := Ideal) x0 x1 x2 x3 x5 x6 x7 x8 x9 x10 x11 x12 x13 x14
      = Cert.Spec.bn2 (val_main_v32 (F := Ideal) x0 x1 x2 x3 x5 x6 x7 x8 x9 x10) x11 x12 x13 x14
  dense2 : ∀ (x0 : (⟨Cert.ReferenceIdeal.S50000x128, .f32⟩ : BufTy).Contents (Elt Ideal)) (x1 x2 : IdxArr) (x3 : ValArr) (x4 : IdxArr)
    (x5 x6 x7 x8 : (⟨Cert.ReferenceIdeal.S128, .f32⟩ : BufTy).Contents (Elt Ideal)) (x9 : (⟨Cert.ReferenceIdeal.S128x128, .f32⟩ : BufTy).Contents (Elt Ideal))
    (x10 x11 x12 x13 x14 : (⟨Cert.ReferenceIdeal.S128, .f32⟩ : BufTy).Contents (Elt Ideal)) (x15 : (⟨Cert.ReferenceIdeal.S500, .f32⟩ : BufTy).Contents (Elt Ideal))
    (x16 : (⟨Cert.ReferenceIdeal.S50000x1, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)),
    val_main_v79 (F := Ideal) x0 x1 x2 x3 x4 x5 x6 x7 x8 x9 x10 x11 x12 x13 x14 x15 x16 x17 x18
      = Cert.Spec.dense2 (val_main_v70 (F := Ideal) x0 x1 x2 x3 x4 x5 x6 x7 x8 x9 x10 x11 x12 x13 x14 x15)
          (val_main_v47 (F := Ideal) x0 x1 x2 x3 x5 x6 x7 x8 x9 x10 x11 x12 x13 x14) x16 x17 x18
  out : ∀ (x0 : (⟨Cert.ReferenceIdeal.S50000x128, .f32⟩ : BufTy).Contents (Elt Ideal)) (x1 x2 : IdxArr) (x3 : ValArr) (x4 : IdxArr)
    (x5 x6 x7 x8 : (⟨Cert.ReferenceIdeal.S128, .f32⟩ : BufTy).Contents (Elt Ideal)) (x9 : (⟨Cert.ReferenceIdeal.S128x128, .f32⟩ : BufTy).Contents (Elt Ideal))
    (x10 x11 x12 x13 x14 : (⟨Cert.ReferenceIdeal.S128, .f32⟩ : BufTy).Contents (Elt Ideal)) (x15 : (⟨Cert.ReferenceIdeal.S500, .f32⟩ : BufTy).Contents (Elt Ideal))
    (x16 : (⟨Cert.ReferenceIdeal.S50000x1, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)),
    val_main_v112 (F := Ideal) x0 x1 x2 x3 x4 x5 x6 x7 x8 x9 x10 x11 x12 x13 x14 x15 x16 x17 x18
      = Cert.Spec.out x0 (val_main_v32 (F := Ideal) x0 x1 x2 x3 x5 x6 x7 x8 x9 x10)
          (val_main_v79 (F := Ideal) x0 x1 x2 x3 x4 x5 x6 x7 x8 x9 x10 x11 x12 x13 x14 x15 x16 x17 x18)

open Cert.ReferenceIdeal.Read in
/-- The reference's result term is the whole computation of its arguments: the stages composed. -/
theorem ref_eq (H : RefValues) (x0 : (⟨Cert.ReferenceIdeal.S50000x128, .f32⟩ : BufTy).Contents (Elt Ideal)) (x1 x2 : IdxArr) (x3 : ValArr) (x4 : IdxArr)
    (x5 x6 x7 x8 : (⟨Cert.ReferenceIdeal.S128, .f32⟩ : BufTy).Contents (Elt Ideal)) (x9 : (⟨Cert.ReferenceIdeal.S128x128, .f32⟩ : BufTy).Contents (Elt Ideal))
    (x10 x11 x12 x13 x14 : (⟨Cert.ReferenceIdeal.S128, .f32⟩ : BufTy).Contents (Elt Ideal)) (x15 : (⟨Cert.ReferenceIdeal.S500, .f32⟩ : BufTy).Contents (Elt Ideal))
    (x16 : (⟨Cert.ReferenceIdeal.S50000x1, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)) :
    val_main_v112 (F := Ideal) x0 x1 x2 x3 x4 x5 x6 x7 x8 x9 x10 x11 x12 x13 x14 x15 x16 x17 x18
      = whole x0 x1 x2 x3 x4 x5 x6 x7 x8 x9 x10 x11 x12 x13 x14 x15 x16 x17 x18 := by
  have e15 := H.dense1 x0 x1 x2 x3 x4 x5 x6 x7 x8 x9 x10 x11 x12 x13 x14 x15 x16 x17 x18
  have e28 := (Sparse.ref_agg1 x0 x1 x2 x3 x5 x6 x7 x8 x9).trans (congrArg (fun h => agg1 h x1 x2 x3) e15)
  have e32 := (H.act x0 x1 x2 x3 x4 x5 x6 x7 x8 x9 x10 x11 x12 x13 x14 x15 x16 x17 x18).trans
    (congrArg (fun s => Cert.Spec.act s x10) e28)
  have e47 := (H.bn2 x0 x1 x2 x3 x4 x5 x6 x7 x8 x9 x10 x11 x12 x13 x14 x15 x16 x17 x18).trans
    (congrArg (fun y => Cert.Spec.bn2 y x11 x12 x13 x14) e32)
  have e70 := (Sparse.ref_agg2 x0 x1 x2 x3 x4 x5 x6 x7 x8 x9 x10 x11 x12 x13 x14 x15).trans
    (congrArg (fun h => agg2 h x1 x2 x3 x4 x15) e47)
  have e79 := (H.dense2 x0 x1 x2 x3 x4 x5 x6 x7 x8 x9 x10 x11 x12 x13 x14 x15 x16 x17 x18).trans
    (congrArg₂ (fun a h => Cert.Spec.dense2 a h x16 x17 x18) e70 e47)
  exact (H.out x0 x1 x2 x3 x4 x5 x6 x7 x8 x9 x10 x11 x12 x13 x14 x15 x16 x17 x18).trans
    (congrArg₂ (fun y1 y2 => Cert.Spec.out x0 y1 y2) e32 e79)

end Cert.Bridge

end
-- ==== Proof.Region01Row.lean ====
/-
  A vector of 128 lane values, viewed as one row [1, 128] and then repeated down the 5000 rows of a block:
  entry (p, q) of the result is lane q of the vector.  This is how every per-lane parameter (a bias, the
  batch-norm statistics, scale and shift) enters a [5000, 128] block.
-/
import proofs.«124451_j77163382440873_2_alg».proof.KernelIdeal
import Idealize.ShloMosaic.Lib.Pipeline.Value
import Idealize.ShloMosaic.Lib.ValueIdx

noncomputable section

namespace Cert.Bridge

open Idealize.ShloMosaic Idealize.ShloMosaic.ValueIdx Cert.KernelIdeal

/-- The row view [128] → [1, 128] followed by the repetition [1, 128] → [5000, 128], read at (p, q), is lane q. -/
theorem rowBroadcast_apply {α : Type} (v : S128.Idx → α) (hc : S128.ShapeCasts S1x128) (hb : S1x128.Broadcasts S5000x128)
    (p : Fin 5000) (q : Fin 128) :
    broadcastTo S5000x128 (shapeCast S1x128 v hc) hb (ix2 p q) = v (ix1 q) := by
  refine (broadcastTo_apply _ _ (ix2 p q) (ix2 (0 : Fin 1) q) ?_).trans ?_
  · intro a
    match a with
    | ⟨0, _⟩ => rfl
    | ⟨1, _⟩ => rfl
  · refine shapeCast_apply v _ (ix2 (0 : Fin 1) q) (ix1 q) ?_
    rw [Shape.rowMajor_val_one, Shape.rowMajor_val_two]
    show q.val = 0 * 128 + q.val
    omega

end Cert.Bridge

end
-- ==== Proof.Region0Pay.lean ====
/-
  The first kernel body (batch normalisation, then a dense layer), one entry at a time.

  From a block x of 5000 rows and the per-lane vectors μ, σ², γ, β the body forms
  BN(x) = (x − μ) · rsqrt(σ² + ε) · γ + β, each lane parameter repeated down the rows, and multiplies it into
  the 128 × 128 weight matrix W, accumulating into zero.  Over the extended reals every operation is the exact
  one and the changes of float format are the identity, so entry (p, q) of the stored block is the sum over
  the lanes k of BN(x)(p, k) · W(k, q).
-/
import proofs.«124451_j77163382440873_2_alg».proof.Proof.Gen.KernelIdeal.Skeleton
import proofs.«124451_j77163382440873_2_alg».proof.Proof.Spec
import proofs.«124451_j77163382440873_2_alg».proof.Proof.Region01Row
import Idealize.ShloMosaic.PureOps.Ideal.Laws

noncomputable section

namespace Cert.Bridge.Region0

open Idealize.ShloMosaic Idealize.ShloMosaic.ValueIdx Cert.KernelIdeal Cert.KernelIdeal.Gen

/-- The product's dimension numbers: rows of the left operand against columns of the right, contracting the left's
    lanes with the right's rows. -/
abbrev dims : DotDims S5000x128 S128x128 S5000x128 := dot_S5000x128_S128x128_S5000x128_1_0_0_1_n_n

/-- The left operand is read in the output's row … -/
theorem lhs_row (i : S5000x128.Idx) (k : dims.contr.Idx) : (dims.lhsIdx i k 0).val = (i 0).val := by
  unfold DotDims.lhsIdx
  rw [dif_neg (show ¬(0 : Fin S5000x128.rank) ∈ dims.lhsBatch by decide),
    dif_pos (show (0 : Fin S5000x128.rank) ∈ dims.lhsNonContracting by decide)]
  rfl
/-- … at the contracted lane; -/
theorem lhs_lane (i : S5000x128.Idx) (k : dims.contr.Idx) : (dims.lhsIdx i k 1).val = (k ⟨0, by decide⟩).val :=
  dims.lhsIdx_val_of_single rfl i k
/-- the right operand at the contracted row … -/
theorem rhs_row (i : S5000x128.Idx) (k : dims.contr.Idx) : (dims.rhsIdx i k 0).val = (k ⟨0, by decide⟩).val :=
  dims.rhsIdx_val_of_single rfl i k
/-- … in the output's column. -/
theorem rhs_col (i : S5000x128.Idx) (k : dims.contr.Idx) : (dims.rhsIdx i k 1).val = (i 1).val := by
  unfold DotDims.rhsIdx
  rw [dif_neg (show ¬(1 : Fin S128x128.rank) ∈ dims.rhsBatch by decide),
    dif_pos (show (1 : Fin S128x128.rank) ∈ dims.rhsNonContracting by decide)]
  rfl

/-- The matrix product accumulated into zero, at entry (p, q): the sum over the 128 lanes k of L(p, k) · R(k, q). -/
theorem matmul_entry (L : FVec Ideal S5000x128 .bf16) (R : FVec Ideal S128x128 .bf16) (p : Fin 5000) (q : Fin 128) :
    FloatOps.matmul dims none L R (constant (F := Ideal) S5000x128 .f32 0x00000000#32) (ix2 p q)
      = ∑ k : Fin 128, L (ix2 p k) * R (ix2 k q) := by
  rw [Ideal.matmul_constant_zero_apply, ← Equiv.sum_comp (contrEquiv1 dims 128 rfl rfl).symm]
  refine Finset.sum_congr rfl fun k _ => ?_
  have hk := contrEquiv1_symm_val dims 128 rfl rfl k
  have el : dims.lhsIdx (ix2 p q) ((contrEquiv1 dims 128 rfl rfl).symm k) = ix2 p k := funext fun a => Fin.ext (by
    match a with
    | ⟨0, _⟩ => exact lhs_row _ _
    | ⟨1, _⟩ => exact (lhs_lane _ _).trans hk)
  have er : dims.rhsIdx (ix2 p q) ((contrEquiv1 dims 128 rfl rfl).symm k) = ix2 k q := funext fun a => Fin.ext (by
    match a with
    | ⟨0, _⟩ => exact (rhs_row _ _).trans hk
    | ⟨1, _⟩ => exact rhs_col _ _)
  rw [el, er]

/-- Entry (p, q) of the stored block: the dense layer of the normalised row p against column q of the weights. -/
theorem dense_entry (x : Vec Ideal S5000x128 .f32) (mu var g b : Vec Ideal S128 .f32) (W : Vec Ideal S128x128 .f32)
    (p : Fin 5000) (q : Fin 128) :
    k0_pay1 (F := Ideal) x mu var g b W (ix2 p q)
      = ∑ k : Fin 128, Cert.Spec.bnv (x (ix2 p k)) (mu (ix1 k)) (var (ix1 k)) (g (ix1 k)) (b (ix1 k)) * W (ix2 k q) := by
  unfold k0_pay1
  show FloatOps.matmul dims none
      (truncf .bf16 (addf (mulf (mulf
          (subf x (broadcastTo S5000x128 (shapeCast S1x128 mu shapeCasts_S128_S1x128) broadcasts_S1x128_S5000x128))
          (broadcastTo S5000x128 (shapeCast S1x128
            (rsqrt (addf var (broadcast S128 (Scalar.ofBits (F := Ideal) .f32 0x3A83126F#32)))) shapeCasts_S128_S1x128)
            broadcasts_S1x128_S5000x128))
          (broadcastTo S5000x128 (shapeCast S1x128 g shapeCasts_S128_S1x128) broadcasts_S1x128_S5000x128))
          (broadcastTo S5000x128 (shapeCast S1x128 b shapeCasts_S128_S1x128) broadcasts_S1x128_S5000x128))
        bitsLt_bf16_f32 : FVec Ideal S5000x128 .bf16)
      (truncf .bf16 W bitsLt_bf16_f32 : FVec Ideal S128x128 .bf16)
      (constant (F := Ideal) S5000x128 .f32 0x00000000#32) (ix2 p q) = _
  refine (matmul_entry _ _ p q).trans ?_
  refine Finset.sum_congr rfl fun k _ => ?_
  show ((x (ix2 p k)
          - broadcastTo S5000x128 (shapeCast S1x128 mu shapeCasts_S128_S1x128) broadcasts_S1x128_S5000x128 (ix2 p k))
        * broadcastTo S5000x128 (shapeCast S1x128
            (rsqrt (addf var (broadcast S128 (Scalar.ofBits (F := Ideal) .f32 0x3A83126F#32)))) shapeCasts_S128_S1x128)
            broadcasts_S1x128_S5000x128 (ix2 p k)
        * broadcastTo S5000x128 (shapeCast S1x128 g shapeCasts_S128_S1x128) broadcasts_S1x128_S5000x128 (ix2 p k)
        + broadcastTo S5000x128 (shapeCast S1x128 b shapeCasts_S128_S1x128) broadcasts_S1x128_S5000x128 (ix2 p k))
      * W (ix2 k q) = _
  rw [rowBroadcast_apply, rowBroadcast_apply, rowBroadcast_apply, rowBroadcast_apply]
  rfl

end Cert.Bridge.Region0

end
-- ==== Proof.Region0.lean ====
/-
  The first kernel (batch normalisation, then a dense layer) over whole arrays.

  The grid has ten points; point t handles rows 5000·t … 5000·t + 4999 of the node features, reads the four
  per-lane vectors and the weight matrix whole, and writes the same rows of the result.  Each written block is
  the specification's dense layer of the input ARRAYS read through that block, the ten blocks cover every row,
  so after the last point the result array is the specification's dense layer of the input arrays.
-/
import proofs.«124451_j77163382440873_2_alg».proof.Proof.Gen.KernelIdeal.Frame
import proofs.«124451_j77163382440873_2_alg».proof.Proof.Region0Pay
import Idealize.ShloMosaic.Lib.Pipeline.Value

noncomputable section

namespace Cert.Bridge.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-! ## One entry of a block, against the arrays -/

/-- The stored block at block index y is the specification's dense layer at array index i, as soon as i is in
    y's lane, the feature block's row of y is the feature array's row of i, and the vectors' and the weights'
    blocks are their arrays. -/
theorem dense_point (x0 : Vec Ideal S5000x128 .f32) (xmu xvar xg xb : Vec Ideal S128 .f32) (xW : Vec Ideal S128x128 .f32)
    (X : Cert.Spec.Mat 50000 128) (G Bt Mu Var : Cert.Spec.Vc 128) (Wm : Cert.Spec.Mat 128 128)
    (y : S5000x128.Idx) (i : S50000x128.Idx) (hq : (i 1).val = (y 1).val)
    (h0 : ∀ (p : Fin 5000) (r : Fin 50000) (k : Fin 128), p.val = (y 0).val → r.val = (i 0).val →
      x0 (ix2 p k) = X (ix2 r k))
    (hmu : ∀ q : Fin 128, xmu (ix1 q) = Mu (ix1 q)) (hvar : ∀ q : Fin 128, xvar (ix1 q) = Var (ix1 q))
    (hg : ∀ q : Fin 128, xg (ix1 q) = G (ix1 q)) (hb : ∀ q : Fin 128, xb (ix1 q) = Bt (ix1 q))
    (hW : ∀ k q : Fin 128, xW (ix2 k q) = Wm (ix2 k q)) :
    k0_pay1 (F := Ideal) x0 xmu xvar xg xb xW y = Cert.Spec.dense1 X G Bt Mu Var Wm i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hq
  rw [dense_entry]
  show _ = ∑ k : Fin 128, Cert.Spec.bnv (X (ix2 r k)) (Mu (ix1 k)) (Var (ix1 k)) (G (ix1 k)) (Bt (ix1 k)) * Wm (ix2 k q')
  refine Finset.sum_congr rfl fun k _ => ?_
  rw [h0 p r k rfl rfl, hmu, hvar, hg, hb, hW]

/-! ## The blocks' places -/

/-- The printed index maps over the ten points: the row-blocked windows sit at block row t, lane block 0; the
    vectors and the weight matrix at block 0. -/
theorem blockIndex : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 1) = 0 ∧ win0_2.index t (0 : Fin 1) = 0 ∧ win0_3.index t (0 : Fin 1) = 0
    ∧ win0_4.index t (0 : Fin 1) = 0
    ∧ win0_5.index t (0 : Fin 2) = 0 ∧ win0_5.index t (1 : Fin 2) = 0 :=
  (by decide +kernel : ∀ t : Fin grid0.N, _)

/-! ## What a point writes back -/

/-- Point t writes back block t of the specification's dense layer of the input arrays. -/
theorem flushed_dense (c : Dev nD) (t : Fin cfg0.N) :
    (dat0 (F := Ideal) V c).flushed 6 t
      = ((cfg0.win 6).blk t).view.read (Elt Ideal) (Cert.Spec.dense1 (V c main_arg0) (V c main_arg5) (V c main_arg6)
          (V c main_arg7) (V c main_arg8) (V c main_arg9)) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S128) zeros1,
    View.ld_unit_zero (S := S128x128) zeros2]
  obtain ⟨e0, e1, e2, e3, e4, e5, e6, e7, e8, e9⟩ := blockIndex t
  funext y
  show k0_pay1 (F := Ideal) (iblk0 V c 0 t) (iblk0 V c 3 t) (iblk0 V c 4 t) (iblk0 V c 1 t) (iblk0 V c 2 t) (iblk0 V c 5 t) y
    = Cert.Spec.dense1 (V c main_arg0) (V c main_arg5) (V c main_arg6) (V c main_arg7) (V c main_arg8) (V c main_arg9)
        (((cfg0.win 6).blk t).view.emb y)
  refine dense_point (iblk0 V c 0 t) (iblk0 V c 3 t) (iblk0 V c 4 t) (iblk0 V c 1 t) (iblk0 V c 2 t) (iblk0 V c 5 t)
    (V c main_arg0) (V c main_arg5) (V c main_arg6) (V c main_arg7) (V c main_arg8) (V c main_arg9) y _ ?_ ?_ ?_ ?_ ?_ ?_ ?_
  · show win0_6.index t (1 : Fin 2) * 128 + 1 * (y 1).val = (y 1).val
    omega
  · intro p r k hp hr
    have hr' : r.val = win0_6.index t (0 : Fin 2) * 5000 + 1 * (y 0).val := hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · intro q
    show V c main_arg7 (((cfg0.win 3).blk t).view.emb (ix1 q)) = V c main_arg7 (ix1 q)
    refine congrArg _ (funext fun a => Fin.ext ?_)
    match a with
    | ⟨0, _⟩ => show win0_3.index t (0 : Fin 1) * 128 + 1 * q.val = q.val; omega
  · intro q
    show V c main_arg8 (((cfg0.win 4).blk t).view.emb (ix1 q)) = V c main_arg8 (ix1 q)
    refine congrArg _ (funext fun a => Fin.ext ?_)
    match a with
    | ⟨0, _⟩ => show win0_4.index t (0 : Fin 1) * 128 + 1 * q.val = q.val; omega
  · intro q
    show V c main_arg5 (((cfg0.win 1).blk t).view.emb (ix1 q)) = V c main_arg5 (ix1 q)
    refine congrArg _ (funext fun a => Fin.ext ?_)
    match a with
    | ⟨0, _⟩ => show win0_1.index t (0 : Fin 1) * 128 + 1 * q.val = q.val; omega
  · intro q
    show V c main_arg6 (((cfg0.win 2).blk t).view.emb (ix1 q)) = V c main_arg6 (ix1 q)
    refine congrArg _ (funext fun a => Fin.ext ?_)
    match a with
    | ⟨0, _⟩ => show win0_2.index t (0 : Fin 1) * 128 + 1 * q.val = q.val; omega
  · intro k q
    show V c main_arg9 (((cfg0.win 5).blk t).view.emb (ix2 k q)) = V c main_arg9 (ix2 k q)
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega

/-! ## The ten blocks cover the array -/

/-- An array index is in point t's block of the result's window iff each coordinate is in the block's range. -/
theorem mem_blk_dense (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v0).slice (win0_6.rect t)).set ↔ _
  rw [View.set_slice_whole, Rect.mem_set_unit]
  exact Iff.rfl

/-- Row r lies in the block of point r / 5000, which writes back. -/
theorem cover_dense (i : S50000x128.Idx) :
    ∃ t : Fin cfg0.N, (cfg0.win 6).flush t = true ∧ i ∈ ((cfg0.win 6).blk t).view.set := by
  have hi0 : (i 0).val < 50000 := idx2_lt0 i
  have hi1 : (i 1).val < 128 := idx2_lt1 i
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨e0, e1, e2, e3, e4, e5, e6, e7, e8, e9⟩ := blockIndex t
  refine ⟨t, flush0_6 t, ?_⟩
  rw [mem_blk_dense]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The array after the last point -/

/-- After the region the result's array is hw = BN₁(x) · W₁ of the region's input arrays. -/
theorem region0 (c : Dev nD) :
    (dat0 (F := Ideal) V c).arrAt 6 cfg0.N
      = Cert.Spec.dense1 (V c main_arg0) (V c main_arg5) (V c main_arg6) (V c main_arg7) (V c main_arg8) (V c main_arg9) :=
  (dat0 (F := Ideal) V c).arrAt_eq_of_cover 6 (Cert.Spec.dense1 (V c main_arg0) (V c main_arg5) (V c main_arg6)
      (V c main_arg7) (V c main_arg8) (V c main_arg9))
    (fun t _ => flushed_dense V c t) cover_dense

end Cert.Bridge.Region0

end
-- ==== Proof.Region1Pay.lean ====
/-
  The second kernel body (activation, then batch normalisation), one entry at a time.

  From a block s of 5000 rows of the aggregated features and the per-lane vectors b₁, μ, σ², γ, β the body
  stores two blocks: y = tanh(s + b₁) and BN(y) = (y − μ) · rsqrt(σ² + ε) · γ + β, each lane parameter repeated
  down the rows.  Over the extended reals every operation is the exact one and the change of float format
  is the identity, so entry (p, q) of each stored block is the specification's formula of entry (p, q) of s
  and lane q of the vectors.
-/
import proofs.«124451_j77163382440873_2_alg».proof.Proof.Gen.KernelIdeal.Skeleton
import proofs.«124451_j77163382440873_2_alg».proof.Proof.Spec
import proofs.«124451_j77163382440873_2_alg».proof.Proof.Region01Row

noncomputable section

namespace Cert.Bridge.Region1

open Idealize.ShloMosaic Idealize.ShloMosaic.ValueIdx Cert.KernelIdeal Cert.KernelIdeal.Gen

/-- Entry (p, q) of the stored activation: tanh of the block's entry plus the bias of lane q. -/
theorem act_entry (s : Vec Ideal S5000x128 .f32) (b1 : Vec Ideal S128 .f32) (p : Fin 5000) (q : Fin 128) :
    k1_pay1 (F := Ideal) s b1 (ix2 p q) = Ideal.tanh (s (ix2 p q) + b1 (ix1 q)) := by
  unfold k1_pay1
  show Ideal.tanh (shapeCast S5000x128 s shapeCasts_S5000x128_S5000x128 (ix2 p q)
      + broadcastTo S5000x128 (shapeCast S1x128 b1 shapeCasts_S128_S1x128) broadcasts_S1x128_S5000x128 (ix2 p q)) = _
  rw [shapeCast_self, rowBroadcast_apply]

/-- Entry (p, q) of the stored normalised activation: the batch-norm formula of the activation's entry and
    lane q of the statistics, scale and shift. -/
theorem bn_entry (s : Vec Ideal S5000x128 .f32) (b1 mu var g b : Vec Ideal S128 .f32) (p : Fin 5000) (q : Fin 128) :
    k1_pay2 (F := Ideal) s b1 mu var g b (ix2 p q)
      = Cert.Spec.bnv (Ideal.tanh (s (ix2 p q) + b1 (ix1 q))) (mu (ix1 q)) (var (ix1 q)) (g (ix1 q)) (b (ix1 q)) := by
  unfold k1_pay2
  show (k1_pay1 (F := Ideal) s b1 (ix2 p q)
        - broadcastTo S5000x128 (shapeCast S1x128 mu shapeCasts_S128_S1x128) broadcasts_S1x128_S5000x128 (ix2 p q))
      * broadcastTo S5000x128 (shapeCast S1x128
          (rsqrt (addf var (broadcast S128 (Scalar.ofBits (F := Ideal) .f32 0x3A83126F#32)))) shapeCasts_S128_S1x128)
          broadcasts_S1x128_S5000x128 (ix2 p q)
      * broadcastTo S5000x128 (shapeCast S1x128 g shapeCasts_S128_S1x128) broadcasts_S1x128_S5000x128 (ix2 p q)
      + broadcastTo S5000x128 (shapeCast S1x128 b shapeCasts_S128_S1x128) broadcasts_S1x128_S5000x128 (ix2 p q) = _
  rw [act_entry, rowBroadcast_apply, rowBroadcast_apply, rowBroadcast_apply, rowBroadcast_apply]
  rfl

end Cert.Bridge.Region1

end
-- ==== Proof.Region1.lean ====
/-
  The second kernel (activation, then batch normalisation) over whole arrays.

  The grid has ten points; point t handles rows 5000·t … 5000·t + 4999 of the aggregated features, reads the
  per-lane vectors whole, and writes the same rows of the two results.  Each written block is the
  specification's function of the input ARRAYS read through that block, the ten blocks cover every row, so
  after the last point each result array is the specification's function of the input arrays.
-/
import proofs.«124451_j77163382440873_2_alg».proof.Proof.Gen.KernelIdeal.Frame
import proofs.«124451_j77163382440873_2_alg».proof.Proof.Region1Pay
import Idealize.ShloMosaic.Lib.Pipeline.Value

noncomputable section

namespace Cert.Bridge.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-! ## One entry of a block, against the arrays -/

/-- The stored activation at block index y is the specification's activation at array index i, as soon as the
    feature block at y is the feature array at i, i is in y's lane, and the bias block is the bias array. -/
theorem act_point (x0 : Vec Ideal S5000x128 .f32) (x1 : Vec Ideal S128 .f32)
    (A : Cert.Spec.Mat 50000 128) (B : Cert.Spec.Vc 128) (y : S5000x128.Idx) (i : S50000x128.Idx)
    (hq : (i 1).val = (y 1).val) (h0 : x0 y = A i) (h1 : ∀ q : Fin 128, x1 (ix1 q) = B (ix1 q)) :
    k1_pay1 (F := Ideal) x0 x1 y = Cert.Spec.act A B i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hq
  rw [act_entry, h0, h1]
  rfl

/-- The stored normalised activation at block index y is the specification's at array index i, under the same
    conditions and with the four batch-norm vectors' blocks the arrays. -/
theorem bn_point (x0 : Vec Ideal S5000x128 .f32) (x1 xmu xvar xg xb : Vec Ideal S128 .f32)
    (A : Cert.Spec.Mat 50000 128) (B G Bt Mu Var : Cert.Spec.Vc 128) (y : S5000x128.Idx) (i : S50000x128.Idx)
    (hq : (i 1).val = (y 1).val) (h0 : x0 y = A i) (h1 : ∀ q : Fin 128, x1 (ix1 q) = B (ix1 q))
    (hmu : ∀ q : Fin 128, xmu (ix1 q) = Mu (ix1 q)) (hvar : ∀ q : Fin 128, xvar (ix1 q) = Var (ix1 q))
    (hg : ∀ q : Fin 128, xg (ix1 q) = G (ix1 q)) (hb : ∀ q : Fin 128, xb (ix1 q) = Bt (ix1 q)) :
    k1_pay2 (F := Ideal) x0 x1 xmu xvar xg xb y = Cert.Spec.bn2 (Cert.Spec.act A B) G Bt Mu Var i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hq
  rw [bn_entry, h0, h1, hmu, hvar, hg, hb]
  rfl

/-! ## The blocks' places -/

/-- The printed index maps over the ten points: the row-blocked windows sit at block row t, lane block 0; the
    vectors at block 0. -/
theorem blockIndex : ∀ t : Fin cfg1.N,
    win1_0.index t (0 : Fin 2) = t.val ∧ win1_0.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0 :=
  (by decide +kernel : ∀ t : Fin grid1.N, _)

/-! ## What a point writes back -/

/-- Point t writes back block t of the specification's activation of the input arrays. -/
theorem flushed_act (c : Dev nD) (t : Fin cfg1.N) :
    (dat1 (F := Ideal) V c).flushed 6 t
      = ((cfg1.win 6).blk t).view.read (Elt Ideal) (Cert.Spec.act (V c main_v14) (V c main_arg10)) := by
  show (cfg1.win 6).cut (grid1.coords t) ((dat1 V c).after 6 t) = _
  rw [after1_6]
  unfold out1_6
  rw [View.canon_unit_zero zeros2]
  simp only [View.ld_unit_zero (S := S5000x128) zeros2, View.ld_unit_zero (S := S128) zeros1]
  obtain ⟨e0, e1, e2, e3, e4, e5, e6, e7, e8, e9, e10⟩ := blockIndex t
  funext y
  show k1_pay1 (F := Ideal) (iblk1 V c 0 t) (iblk1 V c 1 t) y
    = Cert.Spec.act (V c main_v14) (V c main_arg10) (((cfg1.win 6).blk t).view.emb y)
  refine act_point (iblk1 V c 0 t) (iblk1 V c 1 t) (V c main_v14) (V c main_arg10) y _ ?_ ?_ ?_
  · show win1_6.index t (1 : Fin 2) * 128 + 1 * (y 1).val = (y 1).val
    omega
  · show V c main_v14 (((cfg1.win 0).blk t).view.emb y) = V c main_v14 (((cfg1.win 6).blk t).view.emb y)
    refine congrArg _ (funext fun a => Fin.ext ?_)
    match a with
    | ⟨0, _⟩ => show win1_0.index t (0 : Fin 2) * 5000 + 1 * (y 0).val = win1_6.index t (0 : Fin 2) * 5000 + 1 * (y 0).val; omega
    | ⟨1, _⟩ => show win1_0.index t (1 : Fin 2) * 128 + 1 * (y 1).val = win1_6.index t (1 : Fin 2) * 128 + 1 * (y 1).val; omega
  · intro q
    show V c main_arg10 (((cfg1.win 1).blk t).view.emb (ix1 q)) = V c main_arg10 (ix1 q)
    refine congrArg _ (funext fun a => Fin.ext ?_)
    match a with
    | ⟨0, _⟩ => show win1_1.index t (0 : Fin 1) * 128 + 1 * q.val = q.val; omega

/-- Point t writes back block t of the specification's normalised activation of the input arrays. -/
theorem flushed_bn (c : Dev nD) (t : Fin cfg1.N) :
    (dat1 (F := Ideal) V c).flushed 7 t
      = ((cfg1.win 7).blk t).view.read (Elt Ideal) (Cert.Spec.bn2 (Cert.Spec.act (V c main_v14) (V c main_arg10))
          (V c main_arg11) (V c main_arg12) (V c main_arg13) (V c main_arg14)) := by
  show (cfg1.win 7).cut (grid1.coords t) ((dat1 V c).after 7 t) = _
  rw [after1_7]
  unfold out1_7
  rw [View.canon_unit_zero zeros2]
  simp only [View.ld_unit_zero (S := S5000x128) zeros2, View.ld_unit_zero (S := S128) zeros1]
  obtain ⟨e0, e1, e2, e3, e4, e5, e6, e7, e8, e9, e10⟩ := blockIndex t
  funext y
  show k1_pay2 (F := Ideal) (iblk1 V c 0 t) (iblk1 V c 1 t) (iblk1 V c 4 t) (iblk1 V c 5 t) (iblk1 V c 2 t) (iblk1 V c 3 t) y
    = Cert.Spec.bn2 (Cert.Spec.act (V c main_v14) (V c main_arg10)) (V c main_arg11) (V c main_arg12) (V c main_arg13)
        (V c main_arg14) (((cfg1.win 7).blk t).view.emb y)
  refine bn_point (iblk1 V c 0 t) (iblk1 V c 1 t) (iblk1 V c 4 t) (iblk1 V c 5 t) (iblk1 V c 2 t) (iblk1 V c 3 t)
    (V c main_v14) (V c main_arg10) (V c main_arg11) (V c main_arg12) (V c main_arg13) (V c main_arg14) y _ ?_ ?_ ?_ ?_ ?_ ?_ ?_
  · show win1_7.index t (1 : Fin 2) * 128 + 1 * (y 1).val = (y 1).val
    omega
  · show V c main_v14 (((cfg1.win 0).blk t).view.emb y) = V c main_v14 (((cfg1.win 7).blk t).view.emb y)
    refine congrArg _ (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 128 + 1 * (y 1).val = win1_7.index t (1 : Fin 2) * 128 + 1 * (y 1).val; omega
  · intro q
    show V c main_arg10 (((cfg1.win 1).blk t).view.emb (ix1 q)) = V c main_arg10 (ix1 q)
    refine congrArg _ (funext fun a => Fin.ext ?_)
    match a with
    | ⟨0, _⟩ => show win1_1.index t (0 : Fin 1) * 128 + 1 * q.val = q.val; omega
  · intro q
    show V c main_arg13 (((cfg1.win 4).blk t).view.emb (ix1 q)) = V c main_arg13 (ix1 q)
    refine congrArg _ (funext fun a => Fin.ext ?_)
    match a with
    | ⟨0, _⟩ => show win1_4.index t (0 : Fin 1) * 128 + 1 * q.val = q.val; omega
  · intro q
    show V c main_arg14 (((cfg1.win 5).blk t).view.emb (ix1 q)) = V c main_arg14 (ix1 q)
    refine congrArg _ (funext fun a => Fin.ext ?_)
    match a with
    | ⟨0, _⟩ => show win1_5.index t (0 : Fin 1) * 128 + 1 * q.val = q.val; omega
  · intro q
    show V c main_arg11 (((cfg1.win 2).blk t).view.emb (ix1 q)) = V c main_arg11 (ix1 q)
    refine congrArg _ (funext fun a => Fin.ext ?_)
    match a with
    | ⟨0, _⟩ => show win1_2.index t (0 : Fin 1) * 128 + 1 * q.val = q.val; omega
  · intro q
    show V c main_arg12 (((cfg1.win 3).blk t).view.emb (ix1 q)) = V c main_arg12 (ix1 q)
    refine congrArg _ (funext fun a => Fin.ext ?_)
    match a with
    | ⟨0, _⟩ => show win1_3.index t (0 : Fin 1) * 128 + 1 * q.val = q.val; omega

/-! ## The ten blocks cover the arrays -/

/-- An array index is in point t's block of the activation's window iff each coordinate is in the block's range. -/
theorem mem_blk_act (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v15_0).slice (win1_6.rect t)).set ↔ _
  rw [View.set_slice_whole, Rect.mem_set_unit]
  exact Iff.rfl

/-- The same for the normalised activation's window. -/
theorem mem_blk_bn (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v15_1).slice (win1_7.rect t)).set ↔ _
  rw [View.set_slice_whole, Rect.mem_set_unit]
  exact Iff.rfl

/-- Row r lies in the block of point r / 5000, which writes back. -/
theorem cover_act (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨e0, e1, e2, e3, e4, e5, e6, e7, e8, e9, e10⟩ := blockIndex t
  refine ⟨t, flush1_6 t, ?_⟩
  rw [mem_blk_act]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The same for the normalised activation's window. -/
theorem cover_bn (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨e0, e1, e2, e3, e4, e5, e6, e7, e8, e9, e10⟩ := blockIndex t
  refine ⟨t, flush1_7 t, ?_⟩
  rw [mem_blk_bn]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-! ## The arrays after the last point -/

/-- After the region the activation's array is y₁ = tanh(s + b₁) of the region's input arrays. -/
theorem region1_y1 (c : Dev nD) :
    (dat1 (F := Ideal) V c).arrAt 6 cfg1.N = Cert.Spec.act (V c main_v14) (V c main_arg10) :=
  (dat1 (F := Ideal) V c).arrAt_eq_of_cover 6 (Cert.Spec.act (V c main_v14) (V c main_arg10))
    (fun t _ => flushed_act V c t) cover_act

/-- After the region the normalised activation's array is h₂ = BN₂(y₁) of the region's input arrays. -/
theorem region1_h2 (c : Dev nD) :
    (dat1 (F := Ideal) V c).arrAt 7 cfg1.N
      = Cert.Spec.bn2 (Cert.Spec.act (V c main_v14) (V c main_arg10)) (V c main_arg11) (V c main_arg12)
          (V c main_arg13) (V c main_arg14) :=
  (dat1 (F := Ideal) V c).arrAt_eq_of_cover 7 (Cert.Spec.bn2 (Cert.Spec.act (V c main_v14) (V c main_arg10))
      (V c main_arg11) (V c main_arg12) (V c main_arg13) (V c main_arg14))
    (fun t _ => flushed_bn V c t) cover_bn

end Cert.Bridge.Region1

end
-- ==== Proof.Region2Rows.lean ====
/-
  Region 2, the layout operations of its body read at an index.  The body works on blocks of 2000 rows
  by 128 lanes.  Four facts about such a block, each at a row p and a lane q:
  a [2000,1] column broadcast along the lanes reads the column's entry of row p; a 128-vector broadcast
  down the rows reads its lane q; the lane sum kept as a column reads the sum of the 128 entries of row p;
  and the product of a [2000,128] block with a [128,128] matrix into the zero accumulator is, at (p, q),
  the sum over the lanes k of a(p, k) · b(k, q).
-/
import proofs.«124451_j77163382440873_2_alg».proof.Proof.Gen.KernelIdeal.Skeleton
import proofs.«124451_j77163382440873_2_alg».proof.Proof.Spec
import Idealize.ShloMosaic.Lib.Pipeline.Value
import Idealize.ShloMosaic.Lib.ValueIdx
import Idealize.ShloMosaic.PureOps.Ideal.Laws

noncomputable section

namespace Cert.Bridge.Region2

open Idealize.ShloMosaic Idealize.ShloMosaic.ValueIdx Cert.KernelIdeal Cert.KernelIdeal.Gen

/-- A [2000,1] column broadcast along the 128 lanes reads, at (p, q), the column's entry of row p. -/
theorem bcastCol_apply {α : Type} (c : S2000x1.Idx → α) (p : Fin 2000) (q : Fin 128) :
    broadcastTo S2000x128 c broadcasts_S2000x1_S2000x128 (ix2 p q) = c (ix2 p 0) :=
  broadcastTo_apply c broadcasts_S2000x1_S2000x128 (ix2 p q) (ix2 p 0) (fun a => match a with
    | ⟨0, _⟩ => by show p.val = if (2000 : Nat) = 1 then 0 else p.val; rw [if_neg (by decide)]
    | ⟨1, _⟩ => by show (0 : Nat) = if (1 : Nat) = 1 then 0 else q.val; rw [if_pos rfl])

/-- A 128-vector viewed as one row [1,128] and broadcast down the 2000 rows reads, at (p, q), its lane q. -/
theorem bcastRow_apply {α : Type} (v : S128.Idx → α) (p : Fin 2000) (q : Fin 128) :
    broadcastTo S2000x128 (shapeCast S1x128 v shapeCasts_S128_S1x128) broadcasts_S1x128_S2000x128 (ix2 p q) = v (ix1 q) := by
  refine (broadcastTo_apply _ broadcasts_S1x128_S2000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans ?_
  exact shapeCast_apply v shapeCasts_S128_S1x128 (ix2 (0 : Fin 1) q) (ix1 q) (by
    rw [Shape.rowMajor_val_one, Shape.rowMajor_val_two]; show q.val = 0 * 128 + q.val; omega)

/-- The sum along the lanes of a [2000,128] block, kept as a [2000,1] column, reads at row p the sum of
    the 128 entries of row p. -/
theorem rowSum_apply (v : FVec Ideal S2000x128 .f32) (p : Fin 2000) (z : Fin 1) :
    shapeCast S2000x1 (multiReduction .add [1] S2000 v 0x00000000#32 reduces_S2000x128_S2000 (.inl rfl) rfl) shapeCasts_S2000_S2000x1 (ix2 p z)
      = ∑ k : Fin 128, v (ix2 p k) := by
  refine (shapeCast_apply _ shapeCasts_S2000_S2000x1 (ix2 p z) (ix1 p) (by
    rw [Shape.rowMajor_val_one, Shape.rowMajor_val_two]; show p.val = p.val * 1 + z.val; omega)).trans ?_
  refine (Ideal.multiReduction_add_single v 0x00000000#32 reduces_S2000x128_S2000 (.inl rfl) rfl (ix1 p)).trans ?_
  show ∑ k : Fin 128, v (reduces_S2000x128_S2000.lift (ix1 p) k) = _
  refine Finset.sum_congr rfl fun k _ => congrArg v ?_
  funext a; apply Fin.ext
  match a with
  | ⟨0, _⟩ => rfl
  | ⟨1, _⟩ => rfl

theorem dot_lhs_row (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_rhs_col (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into the zero accumulator: entry (p, q) is the sum over the 128 lanes k of
    a(p, k) · b(k, q). -/
theorem matmul_apply_ix (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact dot_lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact dot_rhs_col _ _)
  rw [el, er]

end Cert.Bridge.Region2

end
-- ==== Proof.Region2Pay.lean ====
/-
  Region 2, the body's arithmetic on one block of 2000 rows, read at an index.  With A the block of
  y₂ = (agg + h₂ ⊙ (coeff + 1)) · W_d + b_d, the body normalises the rows of x, y₁ and y₂ (each row times
  rsqrt(max(‖row‖², floor))), adds the three squared norms of each normalised row, grouped
  (first + second) + third, takes rsqrt(max(·, floor)) of that, and stores each normalised part times this
  final scale.  The formulas are stated first over a block; each payload is then read at (p, q).
-/
import proofs.«124451_j77163382440873_2_alg».proof.Proof.Region2Rows
import Idealize.ShloMosaic.Lib.Pipeline.Value
import Idealize.ShloMosaic.Lib.ValueIdx
import Idealize.ShloMosaic.PureOps.Ideal.Laws

noncomputable section

namespace Cert.Bridge.Region2

open Idealize.ShloMosaic Idealize.ShloMosaic.ValueIdx Cert.KernelIdeal Cert.KernelIdeal.Gen

/-! ## The block-level formulas -/

/-- The squared Euclidean norm of row p of a block of 2000 rows. -/
def rowSqB (a : S2000x128.Idx → EReal) (p : Fin 2000) : EReal := ∑ k : Fin 128, a (ix2 p k) * a (ix2 p k)

/-- Row-wise normalisation of a block, with the floor under the squared norm. -/
def l2nB (a : S2000x128.Idx → EReal) : S2000x128.Idx → EReal := fun i =>
  a i * Ideal.rsqrt (max (rowSqB a (i 0)) Spec.epsL2)

/-- (agg + h₂ ⊙ (coeff + 1)) · W_d + b_d on a block of 2000 rows. -/
def dense2B (agg h2 : S2000x128.Idx → EReal) (coeff : S2000x1.Idx → EReal) (Wd : S128x128.Idx → EReal)
    (bd : S128.Idx → EReal) : S2000x128.Idx → EReal := fun i =>
  (∑ k : Fin 128, (agg (ix2 (i 0) k) + h2 (ix2 (i 0) k) * (coeff (ix2 (i 0) 0) + Spec.oneF)) * Wd (ix2 k (i 1)))
    + bd (ix1 (i 1))

/-- The final scale of row p of a block: from the squared norms of the three normalised parts. -/
def invB (nx ny1 ny2 : S2000x128.Idx → EReal) (p : Fin 2000) : EReal :=
  Ideal.rsqrt (max (rowSqB nx p + rowSqB ny1 p + rowSqB ny2 p) Spec.epsL2)

/-- Three blocks side by side: entry (p, j) is part ⌊j / 128⌋ at lane j mod 128. -/
def cat3 (P3 P4 P5 : S2000x128.Idx → EReal) : S2000x384.Idx → EReal := fun i =>
  if h : (i 1).val < 128 then P3 (ix2 (i 0) ⟨(i 1).val, h⟩)
  else if h2 : (i 1).val < 256 then P4 (ix2 (i 0) ⟨(i 1).val - 128, by omega⟩)
  else P5 (ix2 (i 0) ⟨(i 1).val - 256, by have := idx2_lt1 i; omega⟩)

/-- The block of the result: the normalised parts side by side, every row scaled. -/
def outB (x y1 y2 : S2000x128.Idx → EReal) : S2000x384.Idx → EReal := fun i =>
  cat3 (l2nB x) (l2nB y1) (l2nB y2) i * invB (l2nB x) (l2nB y1) (l2nB y2) (i 0)

/-! ## The body's sub-expressions, named -/

/-- The lane sum of a block, kept as a [2000,1] column. -/
def rowSumCol (d : FVec Ideal S2000x128 .f32) : FVec Ideal S2000x1 .f32 :=
  shapeCast S2000x1 (multiReduction .add [1] S2000 d 0x00000000#32 reduces_S2000x128_S2000 (.inl rfl) rfl) shapeCasts_S2000_S2000x1

theorem rowSumCol_apply (d : FVec Ideal S2000x128 .f32) (p : Fin 2000) (z : Fin 1) :
    rowSumCol d (ix2 p z) = ∑ k : Fin 128, d (ix2 p k) := rowSum_apply d p z

/-- rsqrt(max(lane sum, floor)), a [2000,1] column. -/
def normCol (d : FVec Ideal S2000x128 .f32) : FVec Ideal S2000x1 .f32 :=
  rsqrt (maximumf (rowSumCol d) (broadcast S2000x1 (Scalar.ofBits .f32 0x2B8CBCCC#32)))

theorem normCol_apply (d : FVec Ideal S2000x128 .f32) (p : Fin 2000) (z : Fin 1) :
    normCol d (ix2 p z) = Ideal.rsqrt (max (∑ k : Fin 128, d (ix2 p k)) Spec.epsL2) := by
  show Ideal.rsqrt (max (rowSumCol d (ix2 p z)) Spec.epsL2) = _
  rw [rowSumCol_apply]

/-- A block scaled row by row by rsqrt(max(lane sum of d, floor)). -/
def scaleRows (a d : FVec Ideal S2000x128 .f32) : FVec Ideal S2000x128 .f32 :=
  mulf a (broadcastTo S2000x128 (normCol d) broadcasts_S2000x1_S2000x128)

theorem scaleRows_apply (a d : FVec Ideal S2000x128 .f32) (p : Fin 2000) (q : Fin 128) :
    scaleRows a d (ix2 p q) = a (ix2 p q) * Ideal.rsqrt (max (∑ k : Fin 128, d (ix2 p k)) Spec.epsL2) := by
  unfold scaleRows
  rw [mulf_apply, bcastCol_apply, normCol_apply]

/-- agg + h₂ ⊙ (coeff + 1) on a block, as the body forms it (its two format changes are the identity). -/
def selfAggB (h2 : FVec Ideal S2000x128 .bf16) (coeff : FVec Ideal S2000x1 .f32) (agg : FVec Ideal S2000x128 .f32) :
    FVec Ideal S2000x128 .bf16 :=
  truncf .bf16 (addf (shapeCast S2000x128 agg shapeCasts_S2000x128_S2000x128)
    (mulf (extf .f32 (shapeCast S2000x128 h2 shapeCasts_S2000x128_S2000x128) bitsLt_bf16_f32)
      (broadcastTo S2000x128 (addf coeff (broadcast S2000x1 (Scalar.ofBits .f32 0x3F800000#32))) broadcasts_S2000x1_S2000x128))) bitsLt_bf16_f32

theorem selfAggB_apply (h2 : FVec Ideal S2000x128 .bf16) (coeff : FVec Ideal S2000x1 .f32) (agg : FVec Ideal S2000x128 .f32)
    (p : Fin 2000) (k : Fin 128) :
    selfAggB h2 coeff agg (ix2 p k) = agg (ix2 p k) + h2 (ix2 p k) * (coeff (ix2 p 0) + Spec.oneF) := by
  unfold selfAggB
  rw [shapeCast_self, shapeCast_self, truncf_apply, addf_apply, mulf_apply, extf_apply, bcastCol_apply, addf_apply]
  rfl

/-! ## The payloads at an index -/

theorem pay7_eq (x : Vec Ideal S2000x128 .f32) : k2_pay7 x = scaleRows x (mulf x x) := rfl

/-- The first part: the block of x, normalised row by row. -/
theorem pay7_apply (x : Vec Ideal S2000x128 .f32) (p : Fin 2000) (q : Fin 128) :
    k2_pay7 x (ix2 p q) = l2nB x (ix2 p q) := by
  rw [pay7_eq, scaleRows_apply]; rfl

theorem pay8_eq (x : Vec Ideal S2000x128 .f32) :
    k2_pay8 x = scaleRows (shapeCast S2000x128 x shapeCasts_S2000x128_S2000x128)
      (mulf (shapeCast S2000x128 x shapeCasts_S2000x128_S2000x128) (shapeCast S2000x128 x shapeCasts_S2000x128_S2000x128)) := rfl

/-- The second part: the block of y₁, normalised row by row. -/
theorem pay8_apply (x : Vec Ideal S2000x128 .f32) (p : Fin 2000) (q : Fin 128) :
    k2_pay8 x (ix2 p q) = l2nB x (ix2 p q) := by
  rw [pay8_eq, shapeCast_self, scaleRows_apply]; rfl

theorem pay6_eq (h2 : Vec Ideal S2000x128 .bf16) (coeff : Vec Ideal S2000x1 .f32) (agg : Vec Ideal S2000x128 .f32)
    (Wd : Vec Ideal S128x128 .f32) (bd : Vec Ideal S128 .f32) :
    k2_pay6 h2 coeff agg Wd bd
      = addf (matmul dot_S2000x128_S128x128_S2000x128_1_0_0_1_n_n none (selfAggB h2 coeff agg) (truncf .bf16 Wd bitsLt_bf16_f32) (constant (F := Ideal) S2000x128 .f32 0x00000000#32))
          (broadcastTo S2000x128 (shapeCast S1x128 bd shapeCasts_S128_S1x128) broadcasts_S1x128_S2000x128) := rfl

/-- y₂ on the block: (agg + h₂ ⊙ (coeff + 1)) · W_d + b_d. -/
theorem pay6_apply (h2 : Vec Ideal S2000x128 .bf16) (coeff : Vec Ideal S2000x1 .f32) (agg : Vec Ideal S2000x128 .f32)
    (Wd : Vec Ideal S128x128 .f32) (bd : Vec Ideal S128 .f32) (p : Fin 2000) (q : Fin 128) :
    k2_pay6 h2 coeff agg Wd bd (ix2 p q) = dense2B agg h2 coeff Wd bd (ix2 p q) := by
  rw [pay6_eq, addf_apply, matmul_apply_ix, bcastRow_apply]
  show _ = (∑ k : Fin 128, (agg (ix2 p k) + h2 (ix2 p k) * (coeff (ix2 p 0) + Spec.oneF)) * Wd (ix2 k q)) + bd (ix1 q)
  refine congrArg (· + bd (ix1 q)) (Finset.sum_congr rfl fun k _ => ?_)
  rw [selfAggB_apply, truncf_apply]

theorem pay9_eq (h2 : Vec Ideal S2000x128 .bf16) (coeff : Vec Ideal S2000x1 .f32) (agg : Vec Ideal S2000x128 .f32)
    (Wd : Vec Ideal S128x128 .f32) (bd : Vec Ideal S128 .f32) :
    k2_pay9 h2 coeff agg Wd bd = mulf (k2_pay6 h2 coeff agg Wd bd) (k2_pay6 h2 coeff agg Wd bd) := rfl

theorem pay1_eq (A D : FVec Ideal S2000x128 .f32) : k2_pay1 A D = scaleRows A D := rfl

/-- The third part: y₂ normalised row by row, when D is y₂ ⊙ y₂. -/
theorem pay1_apply (A : FVec Ideal S2000x128 .f32) (p : Fin 2000) (q : Fin 128) :
    k2_pay1 A (mulf A A) (ix2 p q) = l2nB A (ix2 p q) := by
  rw [pay1_eq, scaleRows_apply]; rfl

theorem pay2_eq (A B C D : FVec Ideal S2000x128 .f32) :
    k2_pay2 A B C D = rsqrt (maximumf (addf (addf (rowSumCol (mulf B B)) (rowSumCol (mulf C C)))
        (rowSumCol (mulf (k2_pay1 A D) (k2_pay1 A D)))) (broadcast S2000x1 (Scalar.ofBits .f32 0x2B8CBCCC#32))) := rfl

/-- The final scale of row p: from the squared norms of the three parts, grouped (first + second) + third. -/
theorem pay2_apply (A B C D : FVec Ideal S2000x128 .f32) (p : Fin 2000) (z : Fin 1) :
    k2_pay2 A B C D (ix2 p z) = invB B C (k2_pay1 A D) p := by
  rw [pay2_eq]
  show Ideal.rsqrt (max (rowSumCol (mulf B B) (ix2 p z) + rowSumCol (mulf C C) (ix2 p z)
    + rowSumCol (mulf (k2_pay1 A D) (k2_pay1 A D)) (ix2 p z)) Spec.epsL2) = _
  rw [rowSumCol_apply, rowSumCol_apply, rowSumCol_apply]
  rfl

theorem pay3_eq (A B C D : FVec Ideal S2000x128 .f32) :
    k2_pay3 A B C D = mulf B (broadcastTo S2000x128 (k2_pay2 A B C D) broadcasts_S2000x1_S2000x128) := rfl
theorem pay4_eq (A B C D : FVec Ideal S2000x128 .f32) :
    k2_pay4 A B C D = mulf C (broadcastTo S2000x128 (k2_pay2 A B C D) broadcasts_S2000x1_S2000x128) := rfl
theorem pay5_eq (A B C D : FVec Ideal S2000x128 .f32) :
    k2_pay5 A B C D = mulf (k2_pay1 A D) (broadcastTo S2000x128 (k2_pay2 A B C D) broadcasts_S2000x1_S2000x128) := rfl

/-- The three stored blocks: each part times the row's final scale. -/
theorem pay3_apply (A B C D : FVec Ideal S2000x128 .f32) (p : Fin 2000) (q : Fin 128) :
    k2_pay3 A B C D (ix2 p q) = B (ix2 p q) * invB B C (k2_pay1 A D) p := by
  rw [pay3_eq, mulf_apply, bcastCol_apply, pay2_apply]
theorem pay4_apply (A B C D : FVec Ideal S2000x128 .f32) (p : Fin 2000) (q : Fin 128) :
    k2_pay4 A B C D (ix2 p q) = C (ix2 p q) * invB B C (k2_pay1 A D) p := by
  rw [pay4_eq, mulf_apply, bcastCol_apply, pay2_apply]
theorem pay5_apply (A B C D : FVec Ideal S2000x128 .f32) (p : Fin 2000) (q : Fin 128) :
    k2_pay5 A B C D (ix2 p q) = k2_pay1 A D (ix2 p q) * invB B C (k2_pay1 A D) p := by
  rw [pay5_eq, mulf_apply, bcastCol_apply, pay2_apply]

end Cert.Bridge.Region2

end
-- ==== Proof.Region2Cat.lean ====
/-
  Region 2, the output buffer of one grid point as one function of its input blocks, and that function on
  blocks of rows.  The body's three stores put the three scaled parts into lanes 0..127, 128..255 and
  256..383 of a [2000,384] buffer: together they are the three parts side by side, each row times its final
  scale — the block-level form of the result.  Every formula involved reads, for row r of the block, only
  row r of each operand, so on rows r₀ … r₀ + 1999 of the arrays the block-level result is rows
  r₀ … r₀ + 1999 of the array-level result.
-/
import proofs.«124451_j77163382440873_2_alg».proof.Proof.Region2Pay
import Idealize.ShloMosaic.Lib.Pipeline.Value
import Idealize.ShloMosaic.Lib.ValueIdx
import Idealize.ShloMosaic.PureOps.Ideal.Laws

noncomputable section

namespace Cert.Bridge.Region2

open Idealize.ShloMosaic Idealize.ShloMosaic.ValueIdx Cert.KernelIdeal Cert.KernelIdeal.Gen

/-! ## The three stores as one function of the buffer's index -/

/-- The three lane ranges of the 384-lane output buffer. -/
abbrev lanesLo : Rect S2000x384 := Rect.unit (s := S2000x384) ![0, 0] S2000x128.size inb_S2000x384_S2000x128_0_0
abbrev lanesMid : Rect S2000x384 := Rect.unit (s := S2000x384) ![0, 128] S2000x128.size inb_S2000x384_S2000x128_0_128
abbrev lanesHi : Rect S2000x384 := Rect.unit (s := S2000x384) ![0, 256] S2000x128.size inb_S2000x384_S2000x128_0_256

theorem cat3_lo (P3 P4 P5 : S2000x128.Idx → EReal) (x : S2000x128.Idx) : cat3 P3 P4 P5 (lanesLo.emb x) = P3 x := by
  obtain ⟨a, b, rfl⟩ : ∃ (a : Fin 2000) (b : Fin 128), x = ix2 a b := ⟨x 0, x 1, eq_ix2 x⟩
  have hb := b.isLt
  have e1 : ((lanesLo.emb (ix2 a b)) 1).val = 0 + 1 * b.val := rfl
  unfold cat3
  rw [dif_pos (by rw [e1]; omega)]
  refine congrArg P3 (funext fun d => Fin.ext ?_)
  match d with
  | ⟨0, _⟩ => show 0 + 1 * a.val = a.val; omega
  | ⟨1, _⟩ => show 0 + 1 * b.val = b.val; omega

theorem cat3_mid (P3 P4 P5 : S2000x128.Idx → EReal) (x : S2000x128.Idx) : cat3 P3 P4 P5 (lanesMid.emb x) = P4 x := by
  obtain ⟨a, b, rfl⟩ : ∃ (a : Fin 2000) (b : Fin 128), x = ix2 a b := ⟨x 0, x 1, eq_ix2 x⟩
  have hb := b.isLt
  have e1 : ((lanesMid.emb (ix2 a b)) 1).val = 128 + 1 * b.val := rfl
  unfold cat3
  rw [dif_neg (by rw [e1]; omega), dif_pos (by rw [e1]; omega)]
  refine congrArg P4 (funext fun d => Fin.ext ?_)
  match d with
  | ⟨0, _⟩ => show 0 + 1 * a.val = a.val; omega
  | ⟨1, _⟩ => show 128 + 1 * b.val - 128 = b.val; omega

theorem cat3_hi (P3 P4 P5 : S2000x128.Idx → EReal) (x : S2000x128.Idx) : cat3 P3 P4 P5 (lanesHi.emb x) = P5 x := by
  obtain ⟨a, b, rfl⟩ : ∃ (a : Fin 2000) (b : Fin 128), x = ix2 a b := ⟨x 0, x 1, eq_ix2 x⟩
  have hb := b.isLt
  have e1 : ((lanesHi.emb (ix2 a b)) 1).val = 256 + 1 * b.val := rfl
  unfold cat3
  rw [dif_neg (by rw [e1]; omega), dif_neg (by rw [e1]; omega)]
  refine congrArg P5 (funext fun d => Fin.ext ?_)
  match d with
  | ⟨0, _⟩ => show 0 + 1 * a.val = a.val; omega
  | ⟨1, _⟩ => show 256 + 1 * b.val - 256 = b.val; omega

/-- The three lane ranges tile the buffer (checked by evaluation), so every index lies in one of them. -/
theorem cover3 (P5 P4 P3 : S2000x128.Idx → EReal) (y : S2000x384.Idx) :
    ∃ pc ∈ ([⟨lanesHi, P5⟩, ⟨lanesMid, P4⟩, ⟨lanesLo, P3⟩] : List (View.Piece (Elt Ideal) S2000x384 .f32)), y ∈ pc.1.set :=
  View.cover_of_tiled ([⟨lanesHi, P5⟩, ⟨lanesMid, P4⟩, ⟨lanesLo, P3⟩] : List (View.Piece (Elt Ideal) S2000x384 .f32)) S2000x128.size (by rfl) y

/-- Three stores, each of a [2000,128] block, into lanes 256..383, 128..255 and 0..127 of the [2000,384]
    buffer leave the three blocks side by side: the stores tile the buffer, and each is the part of
    the side-by-side function its lane range names. -/
theorem canon3_apply (P5 P4 P3 : S2000x128.Idx → EReal) (y : S2000x384.Idx) :
    View.canon (Val := Elt Ideal) (s := S2000x384) (e := .f32) [⟨lanesHi, P5⟩, ⟨lanesMid, P4⟩, ⟨lanesLo, P3⟩] y
      = cat3 P3 P4 P5 y := by
  refine View.canon_apply_of_pieces (cat3 P3 P4 P5) _ ?_ y (cover3 P5 P4 P3 y)
  intro pc hpc x
  rcases List.mem_cons.mp hpc with rfl | hpc
  · exact (cat3_hi P3 P4 P5 x).symm
  rcases List.mem_cons.mp hpc with rfl | hpc
  · exact (cat3_mid P3 P4 P5 x).symm
  rcases List.mem_cons.mp hpc with rfl | hpc
  · exact (cat3_lo P3 P4 P5 x).symm
  · exact absurd hpc List.not_mem_nil

/-- Scaling each of three blocks row by row by one factor per row scales them side by side. -/
theorem cat3_scale (nx ny1 ny2 : S2000x128.Idx → EReal) (s : Fin 2000 → EReal) (y : S2000x384.Idx) :
    cat3 (fun i => nx i * s (i 0)) (fun i => ny1 i * s (i 0)) (fun i => ny2 i * s (i 0)) y
      = cat3 nx ny1 ny2 y * s (y 0) := by
  unfold cat3
  by_cases h1 : (y 1).val < 128
  · rw [dif_pos h1, dif_pos h1]
  · rw [dif_neg h1, dif_neg h1]
    by_cases h2 : (y 1).val < 256
    · rw [dif_pos h2, dif_pos h2]
    · rw [dif_neg h2, dif_neg h2]

/-! ## The output buffer after the body, as one function of the seven input blocks -/

/-- What the three stores leave in the [2000,384] buffer: the block of the result, from the blocks of
    x, y₁, agg, h₂, coeff and the whole W_d, b_d. -/
theorem out_block (x0 x1 x2 : Vec Ideal S2000x128 .f32) (x3 : Vec Ideal S2000x128 .bf16) (x4 : Vec Ideal S2000x1 .f32)
    (x5 : Vec Ideal S128x128 .f32) (x6 : Vec Ideal S128 .f32) (y : S2000x384.Idx) :
    View.canon (Val := Elt Ideal) (s := S2000x384) (e := .f32)
      [⟨lanesHi, k2_pay5 (k2_pay6 x3 x4 x2 x5 x6) (k2_pay7 x0) (k2_pay8 x1) (k2_pay9 x3 x4 x2 x5 x6)⟩,
       ⟨lanesMid, k2_pay4 (k2_pay6 x3 x4 x2 x5 x6) (k2_pay7 x0) (k2_pay8 x1) (k2_pay9 x3 x4 x2 x5 x6)⟩,
       ⟨lanesLo, k2_pay3 (k2_pay6 x3 x4 x2 x5 x6) (k2_pay7 x0) (k2_pay8 x1) (k2_pay9 x3 x4 x2 x5 x6)⟩] y
      = outB x0 x1 (dense2B x2 x3 x4 x5 x6) y := by
  have hA : k2_pay6 x3 x4 x2 x5 x6 = dense2B x2 x3 x4 x5 x6 := funext fun i => by
    rw [eq_ix2 i]; exact pay6_apply x3 x4 x2 x5 x6 _ _
  have hB : k2_pay7 x0 = l2nB x0 := funext fun i => by rw [eq_ix2 i]; exact pay7_apply x0 _ _
  have hC : k2_pay8 x1 = l2nB x1 := funext fun i => by rw [eq_ix2 i]; exact pay8_apply x1 _ _
  rw [canon3_apply, pay9_eq]
  generalize k2_pay6 x3 x4 x2 x5 x6 = A at hA ⊢
  generalize k2_pay7 x0 = B at hB ⊢
  generalize k2_pay8 x1 = C at hC ⊢
  have hN : k2_pay1 A (mulf A A) = l2nB A := funext fun i => by rw [eq_ix2 i]; exact pay1_apply A _ _
  have h3 : k2_pay3 A B C (mulf A A) = fun i => B i * invB B C (k2_pay1 A (mulf A A)) (i 0) := funext fun i => by
    rw [eq_ix2 i]; exact pay3_apply A B C _ _ _
  have h4 : k2_pay4 A B C (mulf A A) = fun i => C i * invB B C (k2_pay1 A (mulf A A)) (i 0) := funext fun i => by
    rw [eq_ix2 i]; exact pay4_apply A B C _ _ _
  have h5 : k2_pay5 A B C (mulf A A) = fun i => k2_pay1 A (mulf A A) i * invB B C (k2_pay1 A (mulf A A)) (i 0) := funext fun i => by
    rw [eq_ix2 i]; exact pay5_apply A B C _ _ _
  rw [h3, h4, h5, cat3_scale, hN, hB, hC, hA]
  rfl

/-! ## A block of rows of an array, and the block formulas on it -/

/-- Rows r₀ … r₀ + 1999 of a 50000-row array, as a block of 2000 rows. -/
def rowsOf {n : Nat} (X : Spec.Mat 50000 n) (r0 : Nat) (h : r0 + 2000 ≤ 50000) : (⟨2, ![2000, n]⟩ : Shape).Idx → EReal :=
  fun i => X (ix2 ⟨r0 + (i 0).val, by have := idx2_lt0 i; omega⟩ (i 1))

/-- Normalising the rows of a block of rows is taking the block of the normalised array: a row's norm
    only reads that row. -/
theorem l2nB_rowsOf (X : Spec.Mat 50000 128) (r0 : Nat) (h : r0 + 2000 ≤ 50000) :
    l2nB (rowsOf X r0 h) = rowsOf (Spec.l2n X) r0 h := rfl

/-- y₂ on a block of rows of agg, h₂ and coeff is the block of rows of y₂: entry (r, j) only reads row r of
    the three and the whole W_d, b_d. -/
theorem dense2B_rowsOf (agg h2 : Spec.Mat 50000 128) (coeff : Spec.Mat 50000 1) (Wd : Spec.Mat 128 128) (bd : Spec.Vc 128)
    (r0 : Nat) (h : r0 + 2000 ≤ 50000) :
    dense2B (rowsOf agg r0 h) (rowsOf h2 r0 h) (rowsOf coeff r0 h) Wd bd = rowsOf (Spec.dense2 agg h2 coeff Wd bd) r0 h := rfl

/-- The block of the result on blocks of rows of x, y₁, y₂ is the block of rows of the result. -/
theorem outB_rowsOf (X Y1 Y2 : Spec.Mat 50000 128) (r0 : Nat) (h : r0 + 2000 ≤ 50000) :
    outB (rowsOf X r0 h) (rowsOf Y1 r0 h) (rowsOf Y2 r0 h) = rowsOf (Spec.out X Y1 Y2) r0 h := rfl

end Cert.Bridge.Region2

end
-- ==== Proof.Region2.lean ====
/-
  Region 2, from blocks to the array.  Grid point t of the 25 works on rows 2000·t … 2000·t + 1999: each
  blocked operand's block at t is those rows of its array (all lanes), the two whole operands W_d and b_d are
  read entire at every point, and the output block at t is those rows of the [50000,384] result.  What point
  t writes back is therefore rows 2000·t … of the result as the specification states it; the 25 blocks cover
  every row (row r lies in block r / 2000), so after the last point the output array is the specification's
  result of the operand arrays as the region found them.
-/
import proofs.«124451_j77163382440873_2_alg».proof.Proof.Gen.KernelIdeal.Frame
import proofs.«124451_j77163382440873_2_alg».proof.Proof.Region2Cat
import Idealize.ShloMosaic.Lib.Pipeline.Value

set_option maxRecDepth 16384

noncomputable section

namespace Cert.Bridge.Region2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 25 grid points: every blocked window's block index at point t is
    (t, 0), the two whole windows' is zero. -/
theorem block_index : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 1) = 0 :=
  (by decide +kernel : ∀ t : Fin grid2.N, _)

/-- Point t's rows lie inside the array. -/
theorem rows_le (t : Fin cfg2.N) : t.val * 2000 + 2000 ≤ 50000 := by
  have ht : t.val < 25 := t.isLt
  omega

/-! ## Each operand's block at point t -/

theorem blk_x (c : Dev nD) (t : Fin cfg2.N) :
    (iblk2 V c 0 t : S2000x128.Idx → EReal) = rowsOf (V c main_arg0) (t.val * 2000) (rows_le t) := by
  obtain ⟨-, -, e0, e1, -⟩ := block_index t
  funext y
  show V c main_arg0 (((cfg2.win 0).blk t).view.emb y) = V c main_arg0 (ix2 ⟨t.val * 2000 + (y 0).val, _⟩ (y 1))
  refine congrArg _ (funext fun a => Fin.ext ?_)
  match a with
  | ⟨0, _⟩ => show win2_0.index t (0 : Fin 2) * 2000 + 1 * (y 0).val = t.val * 2000 + (y 0).val; omega
  | ⟨1, _⟩ => show win2_0.index t (1 : Fin 2) * 128 + 1 * (y 1).val = (y 1).val; omega

theorem blk_y1 (c : Dev nD) (t : Fin cfg2.N) :
    (iblk2 V c 1 t : S2000x128.Idx → EReal) = rowsOf (V c main_v15_0) (t.val * 2000) (rows_le t) := by
  obtain ⟨-, -, -, -, e0, e1, -⟩ := block_index t
  funext y
  show V c main_v15_0 (((cfg2.win 1).blk t).view.emb y) = V c main_v15_0 (ix2 ⟨t.val * 2000 + (y 0).val, _⟩ (y 1))
  refine congrArg _ (funext fun a => Fin.ext ?_)
  match a with
  | ⟨0, _⟩ => show win2_1.index t (0 : Fin 2) * 2000 + 1 * (y 0).val = t.val * 2000 + (y 0).val; omega
  | ⟨1, _⟩ => show win2_1.index t (1 : Fin 2) * 128 + 1 * (y 1).val = (y 1).val; omega

theorem blk_agg (c : Dev nD) (t : Fin cfg2.N) :
    (iblk2 V c 2 t : S2000x128.Idx → EReal) = rowsOf (V c main_v39) (t.val * 2000) (rows_le t) := by
  obtain ⟨-, -, -, -, -, -, e0, e1, -⟩ := block_index t
  funext y
  show V c main_v39 (((cfg2.win 2).blk t).view.emb y) = V c main_v39 (ix2 ⟨t.val * 2000 + (y 0).val, _⟩ (y 1))
  refine congrArg _ (funext fun a => Fin.ext ?_)
  match a with
  | ⟨0, _⟩ => show win2_2.index t (0 : Fin 2) * 2000 + 1 * (y 0).val = t.val * 2000 + (y 0).val; omega
  | ⟨1, _⟩ => show win2_2.index t (1 : Fin 2) * 128 + 1 * (y 1).val = (y 1).val; omega

theorem blk_h2 (c : Dev nD) (t : Fin cfg2.N) :
    (iblk2 V c 3 t : S2000x128.Idx → EReal) = rowsOf (V c main_v15_1) (t.val * 2000) (rows_le t) := by
  obtain ⟨-, -, -, -, -, -, -, -, e0, e1, -⟩ := block_index t
  funext y
  show V c main_v15_1 (((cfg2.win 3).blk t).view.emb y) = V c main_v15_1 (ix2 ⟨t.val * 2000 + (y 0).val, _⟩ (y 1))
  refine congrArg _ (funext fun a => Fin.ext ?_)
  match a with
  | ⟨0, _⟩ => show win2_3.index t (0 : Fin 2) * 2000 + 1 * (y 0).val = t.val * 2000 + (y 0).val; omega
  | ⟨1, _⟩ => show win2_3.index t (1 : Fin 2) * 128 + 1 * (y 1).val = (y 1).val; omega

theorem blk_coeff (c : Dev nD) (t : Fin cfg2.N) :
    (iblk2 V c 4 t : S2000x1.Idx → EReal) = rowsOf (V c main_arg16) (t.val * 2000) (rows_le t) := by
  obtain ⟨-, -, -, -, -, -, -, -, -, -, e0, e1, -⟩ := block_index t
  funext y
  show V c main_arg16 (((cfg2.win 4).blk t).view.emb y) = V c main_arg16 (ix2 ⟨t.val * 2000 + (y 0).val, _⟩ (y 1))
  refine congrArg _ (funext fun a => Fin.ext ?_)
  match a with
  | ⟨0, _⟩ => show win2_4.index t (0 : Fin 2) * 2000 + 1 * (y 0).val = t.val * 2000 + (y 0).val; omega
  | ⟨1, _⟩ => show win2_4.index t (1 : Fin 2) * 1 + 1 * (y 1).val = (y 1).val; omega

theorem blk_Wd (c : Dev nD) (t : Fin cfg2.N) : (iblk2 V c 5 t : S128x128.Idx → EReal) = V c main_arg17 := by
  obtain ⟨-, -, -, -, -, -, -, -, -, -, -, -, e0, e1, -⟩ := block_index t
  funext y
  show V c main_arg17 (((cfg2.win 5).blk t).view.emb y) = V c main_arg17 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

theorem blk_bd (c : Dev nD) (t : Fin cfg2.N) : (iblk2 V c 6 t : S128.Idx → EReal) = V c main_arg18 := by
  obtain ⟨-, -, -, -, -, -, -, -, -, -, -, -, -, -, e0⟩ := block_index t
  funext y
  show V c main_arg18 (((cfg2.win 6).blk t).view.emb y) = V c main_arg18 y
  refine congrArg _ (funext fun a => Fin.ext ?_)
  match a with
  | ⟨0, _⟩ => show win2_6.index t (0 : Fin 1) * 128 + 1 * (y 0).val = (y 0).val; omega

/-! ## What a point writes back, and the array after the last point -/

/-- The output buffer after the body, as the block-level result of the seven input blocks: every load
    reads its whole staging buffer, and the three stores are the three parts side by side. -/
theorem out2_7_eq (x0 x1 x2 : Vec Ideal S2000x128 .f32) (x3 : Vec Ideal S2000x128 .bf16) (x4 : Vec Ideal S2000x1 .f32)
    (x5 : Vec Ideal S128x128 .f32) (x6 : Vec Ideal S128 .f32) :
    out2_7 x0 x1 x2 x3 x4 x5 x6 = outB x0 x1 (dense2B x2 x3 x4 x5 x6) := by
  unfold out2_7
  simp only [View.ld_unit_zero (S := S2000x128) zeros2, View.ld_unit_zero (S := S2000x1) zeros2,
    View.ld_unit_zero (S := S128x128) zeros2, View.ld_unit_zero (S := S128) zeros1]
  funext y
  exact out_block x0 x1 x2 x3 x4 x5 x6 y

/-- The result the region computes, of the operand arrays as the region finds them. -/
abbrev resultOf (c : Dev nD) : Spec.Mat 50000 384 :=
  Spec.out (V c main_arg0) (V c main_v15_0)
    (Spec.dense2 (V c main_v39) (V c main_v15_1) (V c main_arg16) (V c main_arg17) (V c main_arg18))

/-- What point t writes back is rows 2000·t … 2000·t + 1999 of the result. -/
theorem flushed_eq (c : Dev nD) (t : Fin cfg2.N) :
    (dat2 (F := Ideal) V c).flushed 7 t = ((cfg2.win 7).blk t).view.read (Elt Ideal) (resultOf V c) := by
  show (cfg2.win 7).cut (grid2.coords t) ((dat2 V c).after 7 t) = _
  rw [after2_7, out2_7_eq (iblk2 V c 0 t) (iblk2 V c 1 t) (iblk2 V c 2 t) (iblk2 V c 3 t) (iblk2 V c 4 t) (iblk2 V c 5 t) (iblk2 V c 6 t),
    blk_x V c t, blk_y1 V c t, blk_agg V c t, blk_h2 V c t, blk_coeff V c t, blk_Wd V c t, blk_bd V c t,
    dense2B_rowsOf, outB_rowsOf]
  obtain ⟨e0, e1, -⟩ := block_index t
  funext y
  show resultOf V c (ix2 ⟨t.val * 2000 + (y 0).val, _⟩ (y 1)) = resultOf V c (((cfg2.win 7).blk t).view.emb y)
  refine congrArg _ (funext fun a => Fin.ext ?_)
  match a with
  | ⟨0, _⟩ => show t.val * 2000 + (y 0).val = win2_7.index t (0 : Fin 2) * 2000 + 1 * (y 0).val; omega
  | ⟨1, _⟩ => show (y 1).val = win2_7.index t (1 : Fin 2) * 384 + 1 * (y 1).val; omega

/-- An index of the output array is in point t's block iff each coordinate is in the block's range. -/
theorem mem_blk (t : Fin cfg2.N) (i : S50000x384.Idx) :
    i ∈ ((cfg2.win 7).blk t).view.set ↔ ∀ a : Fin 2, win2_7.index t a * S2000x384.size a ≤ (i a).val
      ∧ (i a).val < win2_7.index t a * S2000x384.size a + S2000x384.size a := by
  show i ∈ ((View.whole main_v40).slice (win2_7.rect t)).set ↔ _
  rw [View.set_slice_whole, Rect.mem_set_unit]
  exact Iff.rfl

/-- Every index of the output array lies in some point's block: row r in block r / 2000. -/
theorem covered (i : S50000x384.Idx) :
    ∃ t : Fin cfg2.N, (cfg2.win 7).flush t = true ∧ i ∈ ((cfg2.win 7).blk t).view.set := by
  have hi0 : (i 0).val < 50000 := (i 0).isLt
  have hi1 : (i 1).val < 384 := (i 1).isLt
  have hlt : (i 0).val / 2000 < 25 := by omega
  obtain ⟨e0, e1, -⟩ := block_index ⟨(i 0).val / 2000, hlt⟩
  have e0' : win2_7.index ⟨(i 0).val / 2000, hlt⟩ (0 : Fin 2) = (i 0).val / 2000 := e0
  refine ⟨⟨(i 0).val / 2000, hlt⟩, flush2_7 _, ?_⟩
  rw [mem_blk]
  intro a
  match a with
  | ⟨0, _⟩ =>
    show win2_7.index ⟨(i 0).val / 2000, hlt⟩ (0 : Fin 2) * 2000 ≤ (i 0).val
      ∧ (i 0).val < win2_7.index ⟨(i 0).val / 2000, hlt⟩ (0 : Fin 2) * 2000 + 2000
    omega
  | ⟨1, _⟩ =>
    show win2_7.index ⟨(i 0).val / 2000, hlt⟩ (1 : Fin 2) * 384 ≤ (i 1).val
      ∧ (i 1).val < win2_7.index ⟨(i 0).val / 2000, hlt⟩ (1 : Fin 2) * 384 + 384
    omega

/-- THE OUTPUT ARRAY after region 2's last grid point: the specification's result of the operand arrays as
    the region found them. -/
theorem region2 (c : Dev nD) :
    (dat2 (F := Ideal) V c).arrAt 7 cfg2.N
      = Cert.Spec.out (V c main_arg0) (V c main_v15_0)
          (Cert.Spec.dense2 (V c main_v39) (V c main_v15_1) (V c main_arg16) (V c main_arg17) (V c main_arg18)) :=
  (dat2 V c).arrAt_eq_of_cover 7 (resultOf V c) (fun t _ => flushed_eq V c t) covered

end Cert.Bridge.Region2

end
-- ==== Proof.RefPointwise.lean ====
/-
  The reference program's two pointwise stages are the specification's: the activation y₁ = tanh(s + b₁) of the
  first aggregation s, and the second batch normalisation h₂ = BN₂(y₁). The aggregation itself stays a named,
  unopened array on both sides.
-/
import proofs.«124451_j77163382440873_2_alg».proof.Proof.Gen.ReferenceIdeal.Read
import proofs.«124451_j77163382440873_2_alg».proof.Proof.Spec

noncomputable section

namespace Cert.RefSpec

open Cert.ReferenceIdeal Cert.ReferenceIdeal.Gen Cert.ReferenceIdeal.Read Idealize.ShloMosaic Idealize.ShloMosaic.ValueIdx

/-! A vector of 128 lanes laid along every row of a 50000 × 128 array is read at the lane of the entry. -/
theorem lane_29_30 (i : S50000x128.Idx) : idx_main_v29 (idx_main_v30 i) = ix1 (i 1) :=
  funext fun a => Fin.ext (by match a with | ⟨0, _⟩ => rfl)
theorem lane_33_34 (i : S50000x128.Idx) : idx_main_v33 (idx_main_v34 i) = ix1 (i 1) :=
  funext fun a => Fin.ext (by match a with | ⟨0, _⟩ => rfl)
theorem lane_39_40 (i : S50000x128.Idx) : idx_main_v39 (idx_main_v40 i) = ix1 (i 1) :=
  funext fun a => Fin.ext (by match a with | ⟨0, _⟩ => rfl)
theorem lane_42_43 (i : S50000x128.Idx) : idx_main_v42 (idx_main_v43 i) = ix1 (i 1) :=
  funext fun a => Fin.ext (by match a with | ⟨0, _⟩ => rfl)
theorem lane_45_46 (i : S50000x128.Idx) : idx_main_v45 (idx_main_v46 i) = ix1 (i 1) :=
  funext fun a => Fin.ext (by match a with | ⟨0, _⟩ => rfl)

/-- The activation stage is tanh of the aggregated array plus the bias of the lane. -/
theorem ref_act_pw (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v32 (F := Ideal) x0 x1 x2 x3 x5 x6 x7 x8 x9 x10 = Cert.Spec.act (val_main_v28 (F := Ideal) x0 x1 x2 x3 x5 x6 x7 x8 x9) x10 := by
  funext i
  rw [val_main_v32_apply, val_main_v31_apply, val_main_v30_apply, val_main_v29_apply, lane_29_30]
  generalize val_main_v28 (F := Ideal) x0 x1 x2 x3 x5 x6 x7 x8 x9 = s
  rfl

/-- The second batch normalisation: ((y₁ − μ) · rsqrt(σ² + ε)) · γ + β with the statistics of the lane. -/
theorem ref_bn2_pw (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) :
    val_main_v47 (F := Ideal) x0 x1 x2 x3 x5 x6 x7 x8 x9 x10 x11 x12 x13 x14
      = Cert.Spec.bn2 (val_main_v32 (F := Ideal) x0 x1 x2 x3 x5 x6 x7 x8 x9 x10) x11 x12 x13 x14 := by
  funext i
  rw [val_main_v47_apply, val_main_v46_apply, val_main_v45_apply, val_main_v44_apply, val_main_v43_apply, val_main_v42_apply,
    val_main_v41_apply, val_main_v40_apply, val_main_v39_apply, val_main_v38_apply, val_main_v37_apply, val_main_v36_apply,
    val_main_cst_2_apply, val_main_v35_apply, val_main_v34_apply, val_main_v33_apply,
    lane_45_46, lane_42_43, lane_39_40, lane_33_34]
  generalize val_main_v32 (F := Ideal) x0 x1 x2 x3 x5 x6 x7 x8 x9 x10 = y
  rfl

end Cert.RefSpec

end
-- ==== Proof.RefDense.lean ====
/-
  The reference program's two dense layers are the specification's: hw = BN₁(x) · W₁, a sum over the 128 lanes of the
  normalised entry times the weight, and y₂ = (agg + h₂ ⊙ (coeff + 1)) · W_d + b_d. The aggregation and the
  normalised activations stay named, unopened arrays on both sides.
-/
import proofs.«124451_j77163382440873_2_alg».proof.Proof.Gen.ReferenceIdeal.Read
import proofs.«124451_j77163382440873_2_alg».proof.Proof.Spec

noncomputable section

namespace Cert.RefSpec

open Cert.ReferenceIdeal Cert.ReferenceIdeal.Gen Cert.ReferenceIdeal.Read Idealize.ShloMosaic Idealize.ShloMosaic.ValueIdx

/-! A vector of 128 lanes laid along every row of a 50000 × 128 array is read at the lane of the entry. -/
theorem lane_0_1 (i : S50000x128.Idx) : idx_main_v0 (idx_main_v1 i) = ix1 (i 1) :=
  funext fun a => Fin.ext (by match a with | ⟨0, _⟩ => rfl)
theorem lane_6_7 (i : S50000x128.Idx) : idx_main_v6 (idx_main_v7 i) = ix1 (i 1) :=
  funext fun a => Fin.ext (by match a with | ⟨0, _⟩ => rfl)
theorem lane_9_10 (i : S50000x128.Idx) : idx_main_v9 (idx_main_v10 i) = ix1 (i 1) :=
  funext fun a => Fin.ext (by match a with | ⟨0, _⟩ => rfl)
theorem lane_12_13 (i : S50000x128.Idx) : idx_main_v12 (idx_main_v13 i) = ix1 (i 1) :=
  funext fun a => Fin.ext (by match a with | ⟨0, _⟩ => rfl)
theorem lane_77_78 (i : S50000x128.Idx) : idx_main_v77 (idx_main_v78 i) = ix1 (i 1) :=
  funext fun a => Fin.ext (by match a with | ⟨0, _⟩ => rfl)

/-- A column of 50000 entries laid along every lane is read at the row of the entry. -/
theorem row_73 (i : S50000x128.Idx) : idx_main_v73 i = ix2 (i 0) 0 :=
  funext fun a => Fin.ext (by match a with | ⟨0, _⟩ => rfl | ⟨1, _⟩ => rfl)

/-! The contraction reads the left operand along row `i 0` and the right operand down column `i 1`. -/
theorem lidx_15 (i : S50000x128.Idx) (k : Fin 128) : lidx_main_v15 i k = ix2 (i 0) k :=
  funext fun a => Fin.ext (by match a with | ⟨0, _⟩ => rfl | ⟨1, _⟩ => rfl)
theorem ridx_15 (i : S50000x128.Idx) (k : Fin 128) : ridx_main_v15 i k = ix2 k (i 1) :=
  funext fun a => Fin.ext (by match a with | ⟨0, _⟩ => rfl | ⟨1, _⟩ => rfl)
theorem lidx_76 (i : S50000x128.Idx) (k : Fin 128) : lidx_main_v76 i k = ix2 (i 0) k :=
  funext fun a => Fin.ext (by match a with | ⟨0, _⟩ => rfl | ⟨1, _⟩ => rfl)
theorem ridx_76 (i : S50000x128.Idx) (k : Fin 128) : ridx_main_v76 i k = ix2 k (i 1) :=
  funext fun a => Fin.ext (by match a with | ⟨0, _⟩ => rfl | ⟨1, _⟩ => rfl)

/-- The first batch normalisation, entry by entry: ((x − μ) · rsqrt(σ² + ε)) · γ + β with the statistics of the lane. -/
theorem bn1_entry (x0 : (⟨S50000x128, .f32⟩ : BufTy).Contents (Elt Ideal)) (x5 x6 x7 x8 : (⟨S128, .f32⟩ : BufTy).Contents (Elt Ideal)) (j : S50000x128.Idx) :
    val_main_v14 (F := Ideal) x0 x5 x6 x7 x8 j
      = Cert.Spec.bnv (x0 j) (x7 (ix1 (j 1))) (x8 (ix1 (j 1))) (x5 (ix1 (j 1))) (x6 (ix1 (j 1))) := by
  rw [val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_cst_apply, val_main_v2_apply, val_main_v1_apply, val_main_v0_apply,
    lane_12_13, lane_9_10, lane_6_7, lane_0_1]
  rfl

/-- The first dense layer: entry (r, j) is the sum over the lanes k of BN₁(x)(r, k) · W₁(k, j). -/
theorem ref_dense1_d (x0 : (⟨S50000x128, .f32⟩ : BufTy).Contents (Elt Ideal)) (x5 x6 x7 x8 : (⟨S128, .f32⟩ : BufTy).Contents (Elt Ideal)) (x9 : (⟨S128x128, .f32⟩ : BufTy).Contents (Elt Ideal)) :
    val_main_v15 (F := Ideal) x0 x5 x6 x7 x8 x9 = Cert.Spec.dense1 x0 x5 x6 x7 x8 x9 := by
  funext i
  rw [val_main_v15_apply]
  show _ = ∑ k : Fin 128, _
  refine Finset.sum_congr rfl fun k _ => ?_
  rw [bn1_entry, lidx_15, ridx_15]
  rfl

/-- The operand of the second dense layer, entry by entry: agg + h₂ · (coeff + 1), the coefficient of the row. -/
theorem selfAgg_entry (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (j : S50000x128.Idx) :
    val_main_v75 (F := Ideal) x0 x1 x2 x3 x4 x5 x6 x7 x8 x9 x10 x11 x12 x13 x14 x15 x16 j
      = Cert.Spec.selfAgg (val_main_v70 (F := Ideal) x0 x1 x2 x3 x4 x5 x6 x7 x8 x9 x10 x11 x12 x13 x14 x15) (val_main_v47 (F := Ideal) x0 x1 x2 x3 x5 x6 x7 x8 x9 x10 x11 x12 x13 x14) x16 j := by
  rw [val_main_v75_apply, val_main_v74_apply, val_main_v73_apply, val_main_v72_apply, val_main_v71_apply, val_main_cst_9_apply,
    row_73]
  generalize val_main_v70 (F := Ideal) x0 x1 x2 x3 x4 x5 x6 x7 x8 x9 x10 x11 x12 x13 x14 x15 = agg
  generalize val_main_v47 (F := Ideal) x0 x1 x2 x3 x5 x6 x7 x8 x9 x10 x11 x12 x13 x14 = h2
  rfl

/-- The second dense layer: the sum over the lanes k of (agg + h₂ ⊙ (coeff + 1))(r, k) · W_d(k, j), plus the bias of lane j. -/
theorem ref_dense2_d (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v79 (F := Ideal) x0 x1 x2 x3 x4 x5 x6 x7 x8 x9 x10 x11 x12 x13 x14 x15 x16 x17 x18
      = Cert.Spec.dense2 (val_main_v70 (F := Ideal) x0 x1 x2 x3 x4 x5 x6 x7 x8 x9 x10 x11 x12 x13 x14 x15) (val_main_v47 (F := Ideal) x0 x1 x2 x3 x5 x6 x7 x8 x9 x10 x11 x12 x13 x14) x16 x17 x18 := by
  funext i
  rw [val_main_v79_apply, val_main_v78_apply, val_main_v77_apply, lane_77_78, val_main_v76_apply, Ideal.addf_def]
  unfold Cert.Spec.dense2
  refine congrArg₂ (· + ·) (Finset.sum_congr rfl fun k _ => ?_) rfl
  rw [selfAgg_entry, lidx_76, ridx_76]
  rfl

end Cert.RefSpec

end
-- ==== Proof.LibSum384.lean ====
/-
  A finite sum over 384 consecutive indices is the sum of its three consecutive blocks of 128, in any commutative
  additive monoid. (Only associativity of addition is used; no finiteness of the summands.)
-/
import Mathlib.Algebra.BigOperators.Fin

namespace Cert.RefSpec

/-- `∑ k < 384, f k = ∑ k < 128, f k + ∑ k < 128, f (k + 128) + ∑ k < 128, f (k + 256)`. -/
theorem sum_384 {M : Type*} [AddCommMonoid M] (f : Fin 384 → M) :
    ∑ k : Fin 384, f k
      = (∑ k : Fin 128, f ⟨k.val, by omega⟩) + (∑ k : Fin 128, f ⟨k.val + 128, by omega⟩)
        + (∑ k : Fin 128, f ⟨k.val + 256, by omega⟩) := by
  have h : ∀ g : Fin (128 + 128 + 128) → M,
      ∑ k, g k = (∑ k : Fin 128, g (Fin.castAdd 128 (Fin.castAdd 128 k)))
        + (∑ k : Fin 128, g (Fin.castAdd 128 (Fin.natAdd 128 k))) + ∑ k : Fin 128, g (Fin.natAdd (128 + 128) k) := by
    intro g
    rw [Fin.sum_univ_add, Fin.sum_univ_add]
  exact h f

end Cert.RefSpec
-- ==== Proof.RefOut.lean ====
/-
  The reference program's last stage is the specification's `out`: each of x, y₁, y₂ is scaled row by row to unit
  length (with a floor under the squared norm), the three are laid side by side into rows of 384 lanes, and every
  such row is scaled to unit length again. The squared norm of a 384-lane row is the sum of the squared norms of
  its three 128-lane parts. y₁ and y₂ stay named, unopened arrays on both sides.
-/
import proofs.«124451_j77163382440873_2_alg».proof.Proof.Gen.ReferenceIdeal.Read
import proofs.«124451_j77163382440873_2_alg».proof.Proof.Spec
import proofs.«124451_j77163382440873_2_alg».proof.Proof.LibSum384

noncomputable section

namespace Cert.RefSpec

open Cert.ReferenceIdeal Cert.ReferenceIdeal.Gen Cert.ReferenceIdeal.Read Idealize.ShloMosaic Idealize.ShloMosaic.ValueIdx

/-! A sum along a row reads the row's entries lane by lane. -/
theorem sq_idx_81 (r : S50000.Idx) (k : Fin 128) : idx_main_v81 r k = ix2 (r 0) k :=
  funext fun a => Fin.ext (by match a with | ⟨0, _⟩ => rfl | ⟨1, _⟩ => rfl)
theorem sq_idx_89 (r : S50000.Idx) (k : Fin 128) : idx_main_v89 r k = ix2 (r 0) k :=
  funext fun a => Fin.ext (by match a with | ⟨0, _⟩ => rfl | ⟨1, _⟩ => rfl)
theorem sq_idx_97 (r : S50000.Idx) (k : Fin 128) : idx_main_v97 r k = ix2 (r 0) k :=
  funext fun a => Fin.ext (by match a with | ⟨0, _⟩ => rfl | ⟨1, _⟩ => rfl)
theorem sq_idx_106 (r : S50000.Idx) (k : Fin 384) : idx_main_v106 r k = ix2 (r 0) k :=
  funext fun a => Fin.ext (by match a with | ⟨0, _⟩ => rfl | ⟨1, _⟩ => rfl)

/-- The squared norm of a row of x. -/
theorem sq_x (x0 : (⟨S50000x128, .f32⟩ : BufTy).Contents (Elt Ideal)) (r : S50000.Idx) :
    val_main_v81 (F := Ideal) x0 r = Cert.Spec.rowSq x0 (r 0) := by
  rw [val_main_v81_apply, val_main_cst_10_apply, Ideal.ofBits_def, Ideal.ofBits_zero_f32, zero_add]
  unfold Cert.Spec.rowSq
  refine Finset.sum_congr rfl fun k _ => ?_
  rw [val_main_v80_apply, sq_idx_81]
  rfl

/-- The squared norm of a row of y₁. -/
theorem sq_y1 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (r : S50000.Idx) :
    val_main_v89 (F := Ideal) x0 x1 x2 x3 x5 x6 x7 x8 x9 x10 r = Cert.Spec.rowSq (val_main_v32 (F := Ideal) x0 x1 x2 x3 x5 x6 x7 x8 x9 x10) (r 0) := by
  rw [val_main_v89_apply, val_main_cst_12_apply, Ideal.ofBits_def, Ideal.ofBits_zero_f32, zero_add]
  unfold Cert.Spec.rowSq
  refine Finset.sum_congr rfl fun k _ => ?_
  rw [val_main_v88_apply, sq_idx_89]
  rfl

/-- The squared norm of a row of y₂. -/
theorem sq_y2 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) (r : S50000.Idx) :
    val_main_v97 (F := Ideal) x0 x1 x2 x3 x4 x5 x6 x7 x8 x9 x10 x11 x12 x13 x14 x15 x16 x17 x18 r = Cert.Spec.rowSq (val_main_v79 (F := Ideal) x0 x1 x2 x3 x4 x5 x6 x7 x8 x9 x10 x11 x12 x13 x14 x15 x16 x17 x18) (r 0) := by
  rw [val_main_v97_apply, val_main_cst_14_apply, Ideal.ofBits_def, Ideal.ofBits_zero_f32, zero_add]
  unfold Cert.Spec.rowSq
  refine Finset.sum_congr rfl fun k _ => ?_
  rw [val_main_v96_apply, sq_idx_97]
  rfl

/-- x scaled row by row: each entry times rsqrt(max(‖row‖², ε')). -/
theorem l2n_x (x0 : (⟨S50000x128, .f32⟩ : BufTy).Contents (Elt Ideal)) :
    val_main_v87 (F := Ideal) x0 = Cert.Spec.l2n x0 := by
  funext i
  rw [val_main_v87_apply, val_main_v86_apply, val_main_v85_apply, val_main_v84_apply, val_main_v83_apply,
    val_main_cst_11_apply, val_main_v82_apply, sq_x]
  rfl

/-- y₁ scaled row by row. -/
theorem l2n_y1 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v95 (F := Ideal) x0 x1 x2 x3 x5 x6 x7 x8 x9 x10 = Cert.Spec.l2n (val_main_v32 (F := Ideal) x0 x1 x2 x3 x5 x6 x7 x8 x9 x10) := by
  funext i
  rw [val_main_v95_apply, val_main_v94_apply, val_main_v93_apply, val_main_v92_apply, val_main_v91_apply,
    val_main_cst_13_apply, val_main_v90_apply, sq_y1]
  generalize val_main_v32 (F := Ideal) x0 x1 x2 x3 x5 x6 x7 x8 x9 x10 = y
  rfl

/-- y₂ scaled row by row. -/
theorem l2n_y2 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v103 (F := Ideal) x0 x1 x2 x3 x4 x5 x6 x7 x8 x9 x10 x11 x12 x13 x14 x15 x16 x17 x18 = Cert.Spec.l2n (val_main_v79 (F := Ideal) x0 x1 x2 x3 x4 x5 x6 x7 x8 x9 x10 x11 x12 x13 x14 x15 x16 x17 x18) := by
  funext i
  rw [val_main_v103_apply, val_main_v102_apply, val_main_v101_apply, val_main_v100_apply, val_main_v99_apply,
    val_main_cst_15_apply, val_main_v98_apply, sq_y2]
  generalize val_main_v79 (F := Ideal) x0 x1 x2 x3 x4 x5 x6 x7 x8 x9 x10 x11 x12 x13 x14 x15 x16 x17 x18 = y
  rfl

/-! Three arrays of 128 lanes side by side: the part an entry of the 384-lane array falls in. -/
theorem cat_of_lo (nx ny1 ny2 : Cert.Spec.Mat 50000 128) (j : S50000x384.Idx) (h : (j 1).val < 128) :
    Cert.Spec.cat nx ny1 ny2 j = nx (ix2 (j 0) ⟨(j 1).val, h⟩) := by
  unfold Cert.Spec.cat
  exact dif_pos h
theorem cat_of_mid (nx ny1 ny2 : Cert.Spec.Mat 50000 128) (j : S50000x384.Idx) (h0 : ¬(j 1).val < 128) (h1 : (j 1).val < 256) :
    Cert.Spec.cat nx ny1 ny2 j = ny1 (ix2 (j 0) ⟨(j 1).val - 128, by omega⟩) := by
  unfold Cert.Spec.cat
  rw [dif_neg h0, dif_pos h1]
theorem cat_of_hi (nx ny1 ny2 : Cert.Spec.Mat 50000 128) (j : S50000x384.Idx) (h0 : ¬(j 1).val < 128) (h1 : ¬(j 1).val < 256) :
    Cert.Spec.cat nx ny1 ny2 j = ny2 (ix2 (j 0) ⟨(j 1).val - 256, by have := idx2_lt1 j; omega⟩) := by
  unfold Cert.Spec.cat
  rw [dif_neg h0, dif_neg h1]

/-- The concatenation of three 50000 × 128 arrays along the lanes, read at an index, is `cat`. -/
theorem cat_apply (nx ny1 ny2 : Cert.Spec.Mat 50000 128)
    (h : Shape.Concatenates (([⟨S50000x128, nx⟩, ⟨S50000x128, ny1⟩, ⟨S50000x128, ny2⟩] : List ((s : Shape) × (s.Idx → EReal))).map (·.1)) S50000x384 1)
    (j : S50000x384.Idx) :
    concatenate S50000x384 1 [⟨S50000x128, nx⟩, ⟨S50000x128, ny1⟩, ⟨S50000x128, ny2⟩] h j = Cert.Spec.cat nx ny1 ny2 j := by
  have hi : ∀ (c : Fin 128) (b : Fin S50000x128.rank), b.cast (rfl : S50000x128.rank = S50000x384.rank) ≠ (1 : Fin S50000x384.rank) →
      ((ix2 (j 0) c : S50000x128.Idx) b).val = (j (b.cast rfl)).val := fun c b hb => by
    match b with
    | ⟨0, _⟩ => rfl
    | ⟨1, _⟩ => exact absurd rfl hb
  by_cases h0 : (j 1).val < 128
  · rw [cat_of_lo nx ny1 ny2 j h0]
    exact concatenate_apply_piece 1 _ h j 0 (by simp) S50000x128 nx rfl rfl 0 rfl _ (hi _) (Nat.zero_add _)
  · by_cases h1 : (j 1).val < 256
    · rw [cat_of_mid nx ny1 ny2 j h0 h1]
      exact concatenate_apply_piece 1 _ h j 1 (by simp) S50000x128 ny1 rfl rfl 128 rfl _ (hi _)
        (by show 128 + ((j 1).val - 128) = (j 1).val; omega)
    · rw [cat_of_hi nx ny1 ny2 j h0 h1]
      exact concatenate_apply_piece 1 _ h j 2 (by simp) S50000x128 ny2 rfl rfl 256 rfl _ (hi _)
        (by show 256 + ((j 1).val - 256) = (j 1).val; omega)

/-- The squared norm of a 384-lane row of three parts side by side is the sum of the parts' squared norms. -/
theorem cat_sq_sum (nx ny1 ny2 : Cert.Spec.Mat 50000 128) (r : Fin 50000) :
    ∑ k : Fin 384, Cert.Spec.cat nx ny1 ny2 (ix2 r k) * Cert.Spec.cat nx ny1 ny2 (ix2 r k) = Cert.Spec.total nx ny1 ny2 r := by
  rw [sum_384]
  unfold Cert.Spec.total Cert.Spec.rowSq
  refine congrArg₂ (· + ·) (congrArg₂ (· + ·) (Finset.sum_congr rfl fun k _ => ?_) (Finset.sum_congr rfl fun k _ => ?_))
    (Finset.sum_congr rfl fun k _ => ?_)
  · rw [cat_of_lo nx ny1 ny2 (ix2 r ⟨k.val, by omega⟩) k.isLt]
  · rw [cat_of_mid nx ny1 ny2 (ix2 r ⟨k.val + 128, by omega⟩) (by show ¬(k.val + 128 < 128); omega) (by show k.val + 128 < 256; omega)]
    have e : (ix2 r (⟨k.val + 128 - 128, by omega⟩ : Fin 128) : S50000x128.Idx) = ix2 r k :=
      congrArg (ix2 r) (Fin.ext (Nat.add_sub_cancel k.val 128))
    exact congrArg (fun t => ny1 t * ny1 t) e
  · rw [cat_of_hi nx ny1 ny2 (ix2 r ⟨k.val + 256, by omega⟩) (by show ¬(k.val + 256 < 128); omega) (by show ¬(k.val + 256 < 256); omega)]
    have e : (ix2 r (⟨k.val + 256 - 256, by omega⟩ : Fin 128) : S50000x128.Idx) = ix2 r k :=
      congrArg (ix2 r) (Fin.ext (Nat.add_sub_cancel k.val 256))
    exact congrArg (fun t => ny2 t * ny2 t) e

/-- The reference's 384-lane array is the three normalised parts side by side. -/
theorem cat_ref (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v104 (F := Ideal) x0 x1 x2 x3 x4 x5 x6 x7 x8 x9 x10 x11 x12 x13 x14 x15 x16 x17 x18
      = Cert.Spec.cat (Cert.Spec.l2n x0) (Cert.Spec.l2n (val_main_v32 (F := Ideal) x0 x1 x2 x3 x5 x6 x7 x8 x9 x10)) (Cert.Spec.l2n (val_main_v79 (F := Ideal) x0 x1 x2 x3 x4 x5 x6 x7 x8 x9 x10 x11 x12 x13 x14 x15 x16 x17 x18)) := by
  funext j
  unfold val_main_v104
  rw [l2n_x, l2n_y1, l2n_y2]
  exact cat_apply _ _ _ _ j

/-- The squared norm of a row of the 384-lane array. -/
theorem total_ref (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) (r : S50000.Idx) :
    val_main_v106 (F := Ideal) x0 x1 x2 x3 x4 x5 x6 x7 x8 x9 x10 x11 x12 x13 x14 x15 x16 x17 x18 r
      = Cert.Spec.total (Cert.Spec.l2n x0) (Cert.Spec.l2n (val_main_v32 (F := Ideal) x0 x1 x2 x3 x5 x6 x7 x8 x9 x10)) (Cert.Spec.l2n (val_main_v79 (F := Ideal) x0 x1 x2 x3 x4 x5 x6 x7 x8 x9 x10 x11 x12 x13 x14 x15 x16 x17 x18)) (r 0) := by
  rw [val_main_v106_apply, val_main_cst_16_apply, Ideal.ofBits_def, Ideal.ofBits_zero_f32, zero_add]
  refine Eq.trans (Finset.sum_congr rfl fun k _ => ?_) (cat_sq_sum _ _ _ (r 0))
  rw [val_main_v105_apply, cat_ref, sq_idx_106]
  rfl

/-- The result: the three normalised parts side by side, every 384-lane row scaled to unit length (with the floor). -/
theorem ref_out_o (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v112 (F := Ideal) x0 x1 x2 x3 x4 x5 x6 x7 x8 x9 x10 x11 x12 x13 x14 x15 x16 x17 x18
      = Cert.Spec.out x0 (val_main_v32 (F := Ideal) x0 x1 x2 x3 x5 x6 x7 x8 x9 x10) (val_main_v79 (F := Ideal) x0 x1 x2 x3 x4 x5 x6 x7 x8 x9 x10 x11 x12 x13 x14 x15 x16 x17 x18) := by
  funext i
  rw [val_main_v112_apply, val_main_v111_apply, val_main_v110_apply, val_main_v109_apply, val_main_v108_apply,
    val_main_cst_17_apply, val_main_v107_apply, total_ref, cat_ref]
  generalize val_main_v79 (F := Ideal) x0 x1 x2 x3 x4 x5 x6 x7 x8 x9 x10 x11 x12 x13 x14 x15 x16 x17 x18 = y2
  generalize val_main_v32 (F := Ideal) x0 x1 x2 x3 x5 x6 x7 x8 x9 x10 = y1
  rfl

end Cert.RefSpec

end
-- ==== Proof.RefSpec.lean ====
/-
  The reference program, stage by stage, is the specification: the five array equalities that take the reference
  from its arguments to its result, the two sparse aggregations staying named arrays in between.
-/
import proofs.«124451_j77163382440873_2_alg».proof.Proof.Gen.ReferenceIdeal.Read
import proofs.«124451_j77163382440873_2_alg».proof.Proof.Spec
import proofs.«124451_j77163382440873_2_alg».proof.Proof.RefPointwise
import proofs.«124451_j77163382440873_2_alg».proof.Proof.RefDense
import proofs.«124451_j77163382440873_2_alg».proof.Proof.RefOut

noncomputable section

namespace Cert.RefSpec

open Cert.ReferenceIdeal Cert.ReferenceIdeal.Gen Cert.ReferenceIdeal.Read Idealize.ShloMosaic Idealize.ShloMosaic.ValueIdx

/-- hw = BN₁(x) · W₁. -/
theorem ref_dense1 (x0 : (⟨S50000x128, .f32⟩ : BufTy).Contents (Elt Ideal)) (x5 x6 x7 x8 : (⟨S128, .f32⟩ : BufTy).Contents (Elt Ideal)) (x9 : (⟨S128x128, .f32⟩ : BufTy).Contents (Elt Ideal)) :
    val_main_v15 (F := Ideal) x0 x5 x6 x7 x8 x9 = Cert.Spec.dense1 x0 x5 x6 x7 x8 x9 :=
  ref_dense1_d x0 x5 x6 x7 x8 x9

/-- y₁ = tanh(s₁ + b₁), s₁ the first aggregation. -/
theorem ref_act (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v32 (F := Ideal) x0 x1 x2 x3 x5 x6 x7 x8 x9 x10 = Cert.Spec.act (val_main_v28 (F := Ideal) x0 x1 x2 x3 x5 x6 x7 x8 x9) x10 :=
  ref_act_pw x0 x1 x2 x3 x5 x6 x7 x8 x9 x10

/-- h₂ = BN₂(y₁). -/
theorem ref_bn2 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) :
    val_main_v47 (F := Ideal) x0 x1 x2 x3 x5 x6 x7 x8 x9 x10 x11 x12 x13 x14
      = Cert.Spec.bn2 (val_main_v32 (F := Ideal) x0 x1 x2 x3 x5 x6 x7 x8 x9 x10) x11 x12 x13 x14 :=
  ref_bn2_pw x0 x1 x2 x3 x5 x6 x7 x8 x9 x10 x11 x12 x13 x14

/-- y₂ = (agg + h₂ ⊙ (coeff + 1)) · W_d + b_d, agg the second aggregation. -/
theorem ref_dense2 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v79 (F := Ideal) x0 x1 x2 x3 x4 x5 x6 x7 x8 x9 x10 x11 x12 x13 x14 x15 x16 x17 x18
      = Cert.Spec.dense2 (val_main_v70 (F := Ideal) x0 x1 x2 x3 x4 x5 x6 x7 x8 x9 x10 x11 x12 x13 x14 x15) (val_main_v47 (F := Ideal) x0 x1 x2 x3 x5 x6 x7 x8 x9 x10 x11 x12 x13 x14) x16 x17 x18 :=
  ref_dense2_d x0 x1 x2 x3 x4 x5 x6 x7 x8 x9 x10 x11 x12 x13 x14 x15 x16 x17 x18

/-- out = ℓ₂-normalise([ℓ₂n(x) | ℓ₂n(y₁) | ℓ₂n(y₂)]). -/
theorem ref_out (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v112 (F := Ideal) x0 x1 x2 x3 x4 x5 x6 x7 x8 x9 x10 x11 x12 x13 x14 x15 x16 x17 x18
      = Cert.Spec.out x0 (val_main_v32 (F := Ideal) x0 x1 x2 x3 x5 x6 x7 x8 x9 x10) (val_main_v79 (F := Ideal) x0 x1 x2 x3 x4 x5 x6 x7 x8 x9 x10 x11 x12 x13 x14 x15 x16 x17 x18) :=
  ref_out_o x0 x1 x2 x3 x4 x5 x6 x7 x8 x9 x10 x11 x12 x13 x14 x15 x16 x17 x18

end Cert.RefSpec

end
-- ==== Proof.lean ====
/-
  The certificate of the two-layer graph network: the kernel (three dense regions around two sparse
  aggregations done on the host) against its plain reference, over the extended reals.

  The frames of the two kernel programs are the generated ones; the reference's frame is its generated run.  The
  idealization rewrote no operation, so `preserves` is trivial.  The value claim: the kernel's result array is the
  third region's output array, which is a function of the arrays that region is entered with; unwinding the
  program's segments one boundary at a time writes the result as ONE function (`Cert.Bridge.whole`) of the nineteen
  arguments — BN₁ and a dense product, a sparse aggregation, tanh and BN₂, a second sparse aggregation, a second
  dense product with a self term, and the row normalisations — and the reference's run, read stage by stage, is the
  same function.  No law beyond commutativity and associativity of addition joins the two sides (the squared norm
  of a 384-lane row against the sum of three 128-lane squared norms), so the finiteness precondition is never opened.
-/
import proofs.«124451_j77163382440873_2_alg».proof.Defs
import proofs.«124451_j77163382440873_2_alg».proof.Proof.Gen.Kernel
import proofs.«124451_j77163382440873_2_alg».proof.Proof.Gen.Kernel.Skeleton
import proofs.«124451_j77163382440873_2_alg».proof.Proof.Gen.Kernel.Launch
import proofs.«124451_j77163382440873_2_alg».proof.Proof.Gen.Kernel.Points
import proofs.«124451_j77163382440873_2_alg».proof.Proof.Gen.Kernel.Frame
import proofs.«124451_j77163382440873_2_alg».proof.Proof.Gen.KernelIdeal
import proofs.«124451_j77163382440873_2_alg».proof.Proof.Gen.KernelIdeal.Skeleton
import proofs.«124451_j77163382440873_2_alg».proof.Proof.Gen.KernelIdeal.Launch
import proofs.«124451_j77163382440873_2_alg».proof.Proof.Gen.KernelIdeal.Points
import proofs.«124451_j77163382440873_2_alg».proof.Proof.Gen.KernelIdeal.Frame
import proofs.«124451_j77163382440873_2_alg».proof.Proof.Gen.ReferenceIdeal
import proofs.«124451_j77163382440873_2_alg».proof.Proof.Gen.Pre_finite_inputs
import proofs.«124451_j77163382440873_2_alg».proof.Proof.Gen.ReferenceIdeal.Run
import proofs.«124451_j77163382440873_2_alg».proof.Proof.Gen.ReferenceIdeal.Read
import proofs.«124451_j77163382440873_2_alg».proof.Proof.RunResult
import proofs.«124451_j77163382440873_2_alg».proof.Proof.Whole
import proofs.«124451_j77163382440873_2_alg».proof.Proof.Region0
import proofs.«124451_j77163382440873_2_alg».proof.Proof.Region1
import proofs.«124451_j77163382440873_2_alg».proof.Proof.Region2
import proofs.«124451_j77163382440873_2_alg».proof.Proof.RefSpec
import Idealize.ShloMosaic.Adequacy
import Idealize.ShloMosaic.Init

set_option maxRecDepth 16384

noncomputable section

namespace Cert.Proof

open Idealize.ShloMosaic Idealize.SL.Sem

/-- The three kernel regions' output arrays, each as the specification's function of the region's entry contents. -/
theorem regionValues : Cert.Bridge.RegionValues :=
  ⟨Cert.Bridge.Region0.region0, Cert.Bridge.Region1.region1_y1, Cert.Bridge.Region1.region1_h2, Cert.Bridge.Region2.region2⟩

/-- The reference's five dense stages, each as the specification's function of the stage before. -/
theorem refValues : Cert.Bridge.RefValues where
  dense1 := fun x0 x1 x2 x3 x4 x5 x6 x7 x8 x9 x10 x11 x12 x13 x14 x15 x16 x17 x18 => Cert.RefSpec.ref_dense1 x0 x5 x6 x7 x8 x9
  act := fun x0 x1 x2 x3 x4 x5 x6 x7 x8 x9 x10 x11 x12 x13 x14 x15 x16 x17 x18 => Cert.RefSpec.ref_act x0 x1 x2 x3 x5 x6 x7 x8 x9 x10
  bn2 := fun x0 x1 x2 x3 x4 x5 x6 x7 x8 x9 x10 x11 x12 x13 x14 x15 x16 x17 x18 => Cert.RefSpec.ref_bn2 x0 x1 x2 x3 x5 x6 x7 x8 x9 x10 x11 x12 x13 x14
  dense2 := fun x0 x1 x2 x3 x4 x5 x6 x7 x8 x9 x10 x11 x12 x13 x14 x15 x16 x17 x18 => Cert.RefSpec.ref_dense2 x0 x1 x2 x3 x4 x5 x6 x7 x8 x9 x10 x11 x12 x13 x14 x15 x16 x17 x18
  out := fun x0 x1 x2 x3 x4 x5 x6 x7 x8 x9 x10 x11 x12 x13 x14 x15 x16 x17 x18 => Cert.RefSpec.ref_out x0 x1 x2 x3 x4 x5 x6 x7 x8 x9 x10 x11 x12 x13 x14 x15 x16 x17 x18

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the claim is the trivial one. -/
theorem preserves : Cert.preserves_Kernel_KernelIdeal := trivial

set_option maxHeartbeats 8000000 in
/-- Over the extended reals the idealized kernel and the idealized reference, run from memories that agree on the
    nineteen arguments, both terminate with the result array at the same function of the arguments. -/
theorem algebraic : Cert.algebraic_KernelIdeal_ReferenceIdeal := by
  intro m ρ m' ρ' _ hagree
  refine ⟨fun c => Cert.Bridge.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.Bridge.result_eq m ρ regionValues c), (h c).2⟩)
      (Cert.Bridge.Run.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v112_eq, Cert.Bridge.ref_eq refValues,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

/-- The certificate: the programs' stated facts, the three frames, the trivial idealization claim and the value claim. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
